-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x640000 : Shape := ⟨2, ![2, 640000]⟩
abbrev S1x128 : Shape := ⟨2, ![1, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S128 .f32) (main_arg6 : FVec F S128x1 .f32) (main_arg7 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x1 .f32) (main_arg1 : IVec S2x640000 32) (main_arg2 : FVec F S1x128 .f32) (main_arg3 : FVec F S128 .f32) (main_arg4 : FVec F S128x128 .f32) (main_arg5 : FVec F S128 .f32) (main_arg6 : FVec F S128x1 .f32) (main_arg7 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x128 .f32 := Host.absf main_arg2
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x1 : Shape := ⟨2, ![100000, 1]⟩
abbrev S2x640000 : Shape := ⟨2, ![2, 640000]⟩
abbrev S1x128 : Shape := ⟨2, ![1, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S100000x128 : Shape := ⟨2, ![100000, 128]⟩
abbrev S5000x1 : Shape := ⟨2, ![5000, 1]⟩
abbrev S5000x128 : Shape := ⟨2, ![5000, 128]⟩
abbrev S740000x128 : Shape := ⟨2, ![740000, 128]⟩
abbrev S1x1 : Shape := ⟨2, ![1, 1]⟩
abbrev S5000 : Shape := ⟨1, ![5000]⟩

abbrev nBuf : Space → Nat
  | .hbm => 97
  | .vmem => 30
  | .smem => 0
  | _ => 0

abbrev bufTy : (tb : Table) → Fin (tcTables nBuf tb) → BufTy
  | .hbm, ⟨0, _⟩ => ⟨S100000x1, .f32⟩
  | .hbm, ⟨1, _⟩ => ⟨S2x640000, .i32⟩
  | .hbm, ⟨2, _⟩ => ⟨S1x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S100000, .i32⟩
  | .hbm, ⟨9, _⟩ => ⟨S1x640000, .i32⟩
  | .hbm, ⟨10, _⟩ => ⟨S640000, .i32⟩
  | .hbm, ⟨11, _⟩ => ⟨S740000, .i32⟩
  | .hbm, ⟨12, _⟩ => ⟨S1x640000, .i32⟩
  | .hbm, ⟨13, _⟩ => ⟨S640000, .i32⟩
  | .hbm, ⟨14, _⟩ => ⟨S740000, .i32⟩
  | .hbm, ⟨15, _⟩ => ⟨S_, .f32⟩
  | .hbm, ⟨16, _⟩ => ⟨S740000, .f32⟩
  | .hbm, ⟨17, _⟩ => ⟨S_, .f32⟩
  | .hbm, ⟨18, _⟩ => ⟨S100000, .f32⟩
  | .hbm, ⟨19, _⟩ => ⟨S740000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S740000, .i32⟩
  | .hbm, ⟨24, _⟩ => ⟨S740000, .i1⟩
  | .hbm, ⟨25, _⟩ => ⟨S_, .i32⟩
  | .hbm, ⟨26, _⟩ => ⟨S740000, .i32⟩
  | .hbm, ⟨27, _⟩ => ⟨S740000, .i32⟩
  | .hbm, ⟨28, _⟩ => ⟨S740000, .i32⟩
  | .hbm, ⟨29, _⟩ => ⟨S740000x1, .i32⟩
  | .hbm, ⟨30, _⟩ => ⟨S740000, .f32⟩
  | .hbm, ⟨31, _⟩ => ⟨S_, .i32⟩
  | .hbm, ⟨32, _⟩ => ⟨S740000, .i32⟩
  | .hbm, ⟨33, _⟩ => ⟨S740000, .i1⟩
  | .hbm, ⟨34, _⟩ => ⟨S_, .i32⟩
  | .hbm, ⟨35, _⟩ => ⟨S740000, .i32⟩
  | .hbm, ⟨36, _⟩ => ⟨S740000, .i32⟩
  | .hbm, ⟨37, _⟩ => ⟨S740000, .i32⟩
  | .hbm, ⟨38, _⟩ => ⟨S740000x1, .i32⟩
  | .hbm, ⟨39, _⟩ => ⟨S740000, .f32⟩
  | .hbm, ⟨40, _⟩ => ⟨S740000, .f32⟩
  | .hbm, ⟨41, _⟩ => ⟨S100000x128, .f32⟩
  | .hbm, ⟨42, _⟩ => ⟨S_, .i32⟩
  | .hbm, ⟨43, _⟩ => ⟨S740000, .i32⟩
  | .hbm, ⟨44, _⟩ => ⟨S740000, .i1⟩
  | .hbm, ⟨45, _⟩ => ⟨S_, .i32⟩
  | .hbm, ⟨46, _⟩ => ⟨S740000, .i32⟩
  | .hbm, ⟨47, _⟩ => ⟨S740000, .i32⟩
  | .hbm, ⟨48, _⟩ => ⟨S740000, .i32⟩
  | .hbm, ⟨49, _⟩ => ⟨S740000x1, .i32⟩
  | .hbm, ⟨50, _⟩ => ⟨S740000x128, .f32⟩
  | .hbm, ⟨51, _⟩ => ⟨S740000x1, .f32⟩
  | .hbm, ⟨52, _⟩ => ⟨S740000x128, .f32⟩
  | .hbm, ⟨53, _⟩ => ⟨S740000x128, .f32⟩
  | .hbm, ⟨54, _⟩ => ⟨S_, .f32⟩
  | .hbm, ⟨55, _⟩ => ⟨S100000x128, .f32⟩
  | .hbm, ⟨56, _⟩ => ⟨S740000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .i32⟩
  | .hbm, ⟨62, _⟩ => ⟨S740000, .i32⟩
  | .hbm, ⟨63, _⟩ => ⟨S740000, .i1⟩
  | .hbm, ⟨64, _⟩ => ⟨S_, .i32⟩
  | .hbm, ⟨65, _⟩ => ⟨S740000, .i32⟩
  | .hbm, ⟨66, _⟩ => ⟨S740000, .i32⟩
  | .hbm, ⟨67, _⟩ => ⟨S740000, .i32⟩
  | .hbm, ⟨68, _⟩ => ⟨S740000x1, .i32⟩
  | .hbm, ⟨69, _⟩ => ⟨S740000x128, .f32⟩
  | .hbm, ⟨70, _⟩ => ⟨S740000x1, .f32⟩
  | .hbm, ⟨71, _⟩ => ⟨S740000x128, .f32⟩
  | .hbm, ⟨72, _⟩ => ⟨S740000x128, .f32⟩
  | .hbm, ⟨73, _⟩ => ⟨S_, .f32⟩
  | .hbm, ⟨74, _⟩ => ⟨S100000x128, .f32⟩
  | .hbm, ⟨75, _⟩ => ⟨S740000x1, .i32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x1, .f32⟩
  | .hbm, ⟨80, _⟩ => ⟨S_, .i32⟩
  | .hbm, ⟨81, _⟩ => ⟨S740000, .i32⟩
  | .hbm, ⟨82, _⟩ => ⟨S740000, .i1⟩
  | .hbm, ⟨83, _⟩ => ⟨S_, .i32⟩
  | .hbm, ⟨84, _⟩ => ⟨S740000, .i32⟩
  | .hbm, ⟨85, _⟩ => ⟨S740000, .i32⟩
  | .hbm, ⟨86, _⟩ => ⟨S740000, .i32⟩
  | .hbm, ⟨87, _⟩ => ⟨S740000x1, .i32⟩
  | .hbm, ⟨88, _⟩ => ⟨S740000x1, .f32⟩
  | .hbm, ⟨89, _⟩ => ⟨S740000x1, .f32⟩
  | .hbm, ⟨90, _⟩ => ⟨S740000x1, .f32⟩
  | .hbm, ⟨91, _⟩ => ⟨S_, .f32⟩
  | .hbm, ⟨92, _⟩ => ⟨S100000x1, .f32⟩
  | .hbm, ⟨93, _⟩ => ⟨S740000x1, .i32⟩
  | .hbm, ⟨94, _⟩ => ⟨S100000x1, .f32⟩
  | .hbm, ⟨95, _⟩ => ⟨S1x1, .f32⟩
  | .hbm, ⟨96, _⟩ => ⟨S100000x1, .f32⟩
  | .local _ .vmem, ⟨0, _⟩ => ⟨S5000x1, .f32⟩
  | .local _ .vmem, ⟨1, _⟩ => ⟨S5000x1, .f32⟩
  | .local _ .vmem, ⟨2, _⟩ => ⟨S1x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x1, .f32⟩
  | .local _ .vmem, ⟨23, _⟩ => ⟨S5000x1, .f32⟩
  | .local _ .vmem, ⟨24, _⟩ => ⟨S5000x1, .f32⟩
  | .local _ .vmem, ⟨25, _⟩ => ⟨S5000x1, .f32⟩
  | .local _ .vmem, ⟨26, _⟩ => ⟨S5000x1, .f32⟩
  | .local _ .vmem, ⟨27, _⟩ => ⟨S1x1, .f32⟩
  | .local _ .vmem, ⟨28, _⟩ => ⟨S5000x1, .f32⟩
  | .local _ .vmem, ⟨29, _⟩ => ⟨S5000x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_7 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_10 : Ref sig .tc := ⟨.hbm, 80, rfl⟩
abbrev main_v60 : Ref sig .tc := ⟨.hbm, 81, rfl⟩
abbrev main_v61 : Ref sig .tc := ⟨.hbm, 82, rfl⟩
abbrev main_c_11 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_12 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  inb_S5000x1_S5000x1_0_0 : ∀ a, (![0, 0] : Fin 2 → Nat) a + S5000x1.size a ≤ S5000x1.size a
  h_S5000x1 : 0 < S5000x1.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  bcast_S_S100000x1 : S_.BroadcastsInDim S100000x1 (![] : Fin 0 → Fin S100000x1.rank)
  shapeCasts_S1_S1x1 : S1.ShapeCasts S1x1
  shapeCasts_S5000x1_S5000x1 : S5000x1.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  reduces_S5000x1_S5000 : S5000x1.Reduces [1] S5000
  shapeCasts_S5000_S5000x1 : S5000.ShapeCasts S5000x1
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S5000x1_S1x128_S5000x128_1_0_0_1_n_n_wf : DotDims.WF S5000x1 S1x128 S5000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  gather_S100000x1_S740000x1_S740000x1_1_0_n_n_0_1_11_wf : GatherDims.WF S100000x1 S740000x1 S740000x1 [1] [0] [] [0] [] 1 ![1, 1]
  scatter_S100000x1_S740000x1_S740000x1_1_0_0_1_wf : ScatterDims.WF S100000x1 S740000x1 S740000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S100000x1.size a
  hwx0_0 : ∀ i : grid0.Coords, EltTy.bits .f32 = 32 ∨ (Rect.block (s := S100000x1) S5000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x1.size a ≤ S128x1.size a
  hwx4_1 : ∀ i : grid4.Coords, EltTy.bits .f32 = 32 ∨ (Rect.block (s := S128x1) S128x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x1.size a ≤ S100000x1.size a
  hwx5_0 : ∀ i : grid5.Coords, EltTy.bits .f32 = 32 ∨ (Rect.block (s := S100000x1) S5000x1.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x1.size a ≤ S1x1.size a
  hwx5_1 : ∀ i : grid5.Coords, EltTy.bits .f32 = 32 ∨ (Rect.block (s := S1x1) S1x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S5000x1_S1x128_S5000x128_1_0_0_1_n_n : DotDims S5000x1 S1x128 S5000x128 where
  lhsContracting := [1]
  rhsContracting := [0]
  lhsNonContracting := [0]
  rhsNonContracting := [1]
  lhsBatch := []
  rhsBatch := []
  wf := dot_S5000x1_S1x128_S5000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def gather_S100000x1_S740000x1_S740000x1_1_0_n_n_0_1_11 : GatherDims S100000x1 S740000x1 S740000x1 where
  offsetDims := [1]
  collapsedSliceDims := [0]
  operandBatchingDims := []
  startIndicesBatchingDims := []
  startIndexMap := [0]
  indexVectorDim := 1
  sliceSizes := ![1, 1]
  wf := gather_S100000x1_S740000x1_S740000x1_1_0_n_n_0_1_11_wf
def scatter_S100000x1_S740000x1_S740000x1_1_0_0_1 : ScatterDims S100000x1 S740000x1 S740000x1 where
  updateWindowDims := [1]
  insertedWindowDims := [0]
  scatterDimsToOperandDims := [0]
  indexVectorDim := 1
  wf := scatter_S100000x1_S740000x1_S740000x1_1_0_0_1_wf

abbrev win0_0 : Pipeline.Window sig grid0 :=
  Pipeline.Window.ofSpec (Memref.whole main_arg0) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v58) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S5000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v71) S5000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v72) S1x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v73) S5000x1.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x1 : Shape := ⟨2, ![100000, 1]⟩
abbrev S2x640000 : Shape := ⟨2, ![2, 640000]⟩
abbrev S1x128 : Shape := ⟨2, ![1, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S100000x128 : Shape := ⟨2, ![100000, 128]⟩
abbrev S740000x128 : Shape := ⟨2, ![740000, 128]⟩
abbrev S1x1 : Shape := ⟨2, ![1, 1]⟩

abbrev nBuf : Space → Nat
  | .hbm => 119
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S2x640000, .i32⟩
  | .hbm, ⟨2, _⟩ => ⟨S1x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S100000, .i32⟩
  | .hbm, ⟨9, _⟩ => ⟨S1x640000, .i32⟩
  | .hbm, ⟨10, _⟩ => ⟨S640000, .i32⟩
  | .hbm, ⟨11, _⟩ => ⟨S740000, .i32⟩
  | .hbm, ⟨12, _⟩ => ⟨S1x640000, .i32⟩
  | .hbm, ⟨13, _⟩ => ⟨S640000, .i32⟩
  | .hbm, ⟨14, _⟩ => ⟨S740000, .i32⟩
  | .hbm, ⟨15, _⟩ => ⟨S_, .f32⟩
  | .hbm, ⟨16, _⟩ => ⟨S740000, .f32⟩
  | .hbm, ⟨17, _⟩ => ⟨S_, .f32⟩
  | .hbm, ⟨18, _⟩ => ⟨S100000, .f32⟩
  | .hbm, ⟨19, _⟩ => ⟨S740000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S740000, .i32⟩
  | .hbm, ⟨24, _⟩ => ⟨S740000, .i1⟩
  | .hbm, ⟨25, _⟩ => ⟨S_, .i32⟩
  | .hbm, ⟨26, _⟩ => ⟨S740000, .i32⟩
  | .hbm, ⟨27, _⟩ => ⟨S740000, .i32⟩
  | .hbm, ⟨28, _⟩ => ⟨S740000, .i32⟩
  | .hbm, ⟨29, _⟩ => ⟨S740000x1, .i32⟩
  | .hbm, ⟨30, _⟩ => ⟨S740000, .f32⟩
  | .hbm, ⟨31, _⟩ => ⟨S_, .i32⟩
  | .hbm, ⟨32, _⟩ => ⟨S740000, .i32⟩
  | .hbm, ⟨33, _⟩ => ⟨S740000, .i1⟩
  | .hbm, ⟨34, _⟩ => ⟨S_, .i32⟩
  | .hbm, ⟨35, _⟩ => ⟨S740000, .i32⟩
  | .hbm, ⟨36, _⟩ => ⟨S740000, .i32⟩
  | .hbm, ⟨37, _⟩ => ⟨S740000, .i32⟩
  | .hbm, ⟨38, _⟩ => ⟨S740000x1, .i32⟩
  | .hbm, ⟨39, _⟩ => ⟨S740000, .f32⟩
  | .hbm, ⟨40, _⟩ => ⟨S740000, .f32⟩
  | .hbm, ⟨41, _⟩ => ⟨S100000x128, .f32⟩
  | .hbm, ⟨42, _⟩ => ⟨S_, .i32⟩
  | .hbm, ⟨43, _⟩ => ⟨S740000, .i32⟩
  | .hbm, ⟨44, _⟩ => ⟨S740000, .i1⟩
  | .hbm, ⟨45, _⟩ => ⟨S_, .i32⟩
  | .hbm, ⟨46, _⟩ => ⟨S740000, .i32⟩
  | .hbm, ⟨47, _⟩ => ⟨S740000, .i32⟩
  | .hbm, ⟨48, _⟩ => ⟨S740000, .i32⟩
  | .hbm, ⟨49, _⟩ => ⟨S740000x1, .i32⟩
  | .hbm, ⟨50, _⟩ => ⟨S740000x128, .f32⟩
  | .hbm, ⟨51, _⟩ => ⟨S740000x1, .f32⟩
  | .hbm, ⟨52, _⟩ => ⟨S740000x128, .f32⟩
  | .hbm, ⟨53, _⟩ => ⟨S740000x128, .f32⟩
  | .hbm, ⟨54, _⟩ => ⟨S_, .f32⟩
  | .hbm, ⟨55, _⟩ => ⟨S100000x128, .f32⟩
  | .hbm, ⟨56, _⟩ => ⟨S740000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S_, .i32⟩
  | .hbm, ⟨66, _⟩ => ⟨S740000, .i32⟩
  | .hbm, ⟨67, _⟩ => ⟨S740000, .i1⟩
  | .hbm, ⟨68, _⟩ => ⟨S_, .i32⟩
  | .hbm, ⟨69, _⟩ => ⟨S740000, .i32⟩
  | .hbm, ⟨70, _⟩ => ⟨S740000, .i32⟩
  | .hbm, ⟨71, _⟩ => ⟨S740000, .i32⟩
  | .hbm, ⟨72, _⟩ => ⟨S740000x1, .i32⟩
  | .hbm, ⟨73, _⟩ => ⟨S740000x128, .f32⟩
  | .hbm, ⟨74, _⟩ => ⟨S740000x1, .f32⟩
  | .hbm, ⟨75, _⟩ => ⟨S740000x128, .f32⟩
  | .hbm, ⟨76, _⟩ => ⟨S740000x128, .f32⟩
  | .hbm, ⟨77, _⟩ => ⟨S_, .f32⟩
  | .hbm, ⟨78, _⟩ => ⟨S100000x128, .f32⟩
  | .hbm, ⟨79, _⟩ => ⟨S740000x1, .i32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S100000x128, .f32⟩
  | .hbm, ⟨86, _⟩ => ⟨S100000x128, .f32⟩
  | .hbm, ⟨87, _⟩ => ⟨S100000x1, .f32⟩
  | .hbm, ⟨88, _⟩ => ⟨S_, .i32⟩
  | .hbm, ⟨89, _⟩ => ⟨S740000, .i32⟩
  | .hbm, ⟨90, _⟩ => ⟨S740000, .i1⟩
  | .hbm, ⟨91, _⟩ => ⟨S_, .i32⟩
  | .hbm, ⟨92, _⟩ => ⟨S740000, .i32⟩
  | .hbm, ⟨93, _⟩ => ⟨S740000, .i32⟩
  | .hbm, ⟨94, _⟩ => ⟨S740000, .i32⟩
  | .hbm, ⟨95, _⟩ => ⟨S740000x1, .i32⟩
  | .hbm, ⟨96, _⟩ => ⟨S740000x1, .f32⟩
  | .hbm, ⟨97, _⟩ => ⟨S740000x1, .f32⟩
  | .hbm, ⟨98, _⟩ => ⟨S740000x1, .f32⟩
  | .hbm, ⟨99, _⟩ => ⟨S_, .f32⟩
  | .hbm, ⟨100, _⟩ => ⟨S100000x1, .f32⟩
  | .hbm, ⟨101, _⟩ => ⟨S740000x1, .i32⟩
  | .hbm, ⟨102, _⟩ => ⟨S100000x1, .f32⟩
  | .hbm, ⟨103, _⟩ => ⟨S1x1, .f32⟩
  | .hbm, ⟨104, _⟩ => ⟨S100000x1, .f32⟩
  | .hbm, ⟨105, _⟩ => ⟨S100000x1, .f32⟩
  | .hbm, ⟨106, _⟩ => ⟨S_, .f32⟩
  | .hbm, ⟨107, _⟩ => ⟨S100000, .f32⟩
  | .hbm, ⟨108, _⟩ => ⟨S_, .f32⟩
  | .hbm, ⟨109, _⟩ => ⟨S100000, .f32⟩
  | .hbm, ⟨110, _⟩ => ⟨S100000, .f32⟩
  | .hbm, ⟨111, _⟩ => ⟨S100000x1, .f32⟩
  | .hbm, ⟨112, _⟩ => ⟨S100000x1, .f32⟩
  | .hbm, ⟨113, _⟩ => ⟨S100000x1, .f32⟩
  | .hbm, ⟨114, _⟩ => ⟨S_, .f32⟩
  | .hbm, ⟨115, _⟩ => ⟨S100000, .f32⟩
  | .hbm, ⟨116, _⟩ => ⟨S100000x1, .f32⟩
  | .hbm, ⟨117, _⟩ => ⟨S100000x1, .f32⟩
  | .hbm, ⟨118, _⟩ => ⟨S100000x1, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_call1_cst : Ref sig .tc := ⟨.hbm, 84, rfl⟩
abbrev main_call1_v0 : Ref sig .tc := ⟨.hbm, 85, rfl⟩
abbrev main_v62 : Ref sig .tc := ⟨.hbm, 86, rfl⟩
abbrev main_v63 : Ref sig .tc := ⟨.hbm, 87, rfl⟩
abbrev main_c_10 : Ref sig .tc := ⟨.hbm, 88, rfl⟩
abbrev main_v64 : Ref sig .tc := ⟨.hbm, 89, rfl⟩
abbrev main_v65 : Ref sig .tc := ⟨.hbm, 90, rfl⟩
abbrev main_c_11 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_12 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_call2_cst : Ref sig .tc := ⟨.hbm, 106, rfl⟩
abbrev main_call2_v0 : Ref sig .tc := ⟨.hbm, 107, rfl⟩
abbrev main_call2_cst_0 : Ref sig .tc := ⟨.hbm, 108, rfl⟩
abbrev main_call2_v1 : Ref sig .tc := ⟨.hbm, 109, rfl⟩
abbrev main_call2_v2 : Ref sig .tc := ⟨.hbm, 110, rfl⟩
abbrev main_call2_v3 : Ref sig .tc := ⟨.hbm, 111, rfl⟩
abbrev main_call2_v4 : Ref sig .tc := ⟨.hbm, 112, rfl⟩
abbrev main_call2_v5 : Ref sig .tc := ⟨.hbm, 113, rfl⟩
abbrev main_call2_cst_1 : Ref sig .tc := ⟨.hbm, 114, rfl⟩
abbrev main_call2_v6 : Ref sig .tc := ⟨.hbm, 115, rfl⟩
abbrev main_call2_v7 : Ref sig .tc := ⟨.hbm, 116, rfl⟩
abbrev main_call2_v8 : Ref sig .tc := ⟨.hbm, 117, rfl⟩
abbrev main_v79 : Ref sig .tc := ⟨.hbm, 118, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x1_0 : S100000.BroadcastsInDim S100000x1 (![0] : Fin 1 → Fin S100000x1.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S100000x1_S1x128_S100000x128_1_0_0_1_n_n_wf : DotDims.WF S100000x1 S1x128 S100000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []
  gather_S100000x1_S740000x1_S740000x1_1_0_n_n_0_1_11_wf : GatherDims.WF S100000x1 S740000x1 S740000x1 [1] [0] [] [0] [] 1 ![1, 1]
  scatter_S100000x1_S740000x1_S740000x1_1_0_0_1_wf : ScatterDims.WF S100000x1 S740000x1 S740000x1 [1] [0] [0] 1

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S100000x1_S1x128_S100000x128_1_0_0_1_n_n : DotDims S100000x1 S1x128 S100000x128 where
  lhsContracting := [1]
  rhsContracting := [0]
  lhsNonContracting := [0]
  rhsNonContracting := [1]
  lhsBatch := []
  rhsBatch := []
  wf := dot_S100000x1_S1x128_S100000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S740000x1_S740000x1_1_0_n_n_0_1_11 : GatherDims S100000x1 S740000x1 S740000x1 where
  offsetDims := [1]
  collapsedSliceDims := [0]
  operandBatchingDims := []
  startIndicesBatchingDims := []
  startIndexMap := [0]
  indexVectorDim := 1
  sliceSizes := ![1, 1]
  wf := gather_S100000x1_S740000x1_S740000x1_1_0_n_n_0_1_11_wf
def scatter_S100000x1_S740000x1_S740000x1_1_0_0_1 : ScatterDims S100000x1 S740000x1 S740000x1 where
  updateWindowDims := [1]
  insertedWindowDims := [0]
  scatterDimsToOperandDims := [0]
  indexVectorDim := 1
  wf := scatter_S100000x1_S740000x1_S740000x1_1_0_0_1_wf

class Facts : Prop extends Facts₀ where

variable [Facts]
-- ==== Proof.Stages.lean ====
/-
  The three-layer graph convolution both programs compute, as named stages.

  Nodes 0 … 99999, edges 0 … 639999 given as a 2 × 640000 table of (source, target) node numbers, to which one self
  loop per node is appended: 740000 messages. A node's degree is the number of messages that arrive at it, and a
  message from s to d is weighted by degree(s)^(-1/2) · degree(d)^(-1/2).

  One layer takes a node table h, forms h · W (a dense product), sends along every message the source's row scaled
  by the message's weight, adds up what arrives at each node (`aggregate128` for 128 columns, `aggregate1` for one),
  and adds a bias row. The first two layers end in a rectifier (`biasRelu`), the last one in a logarithmic softmax
  along the rows (`biasLogSoftmax`).

  The message bookkeeping (sources, targets, wrapped indices, weights, gather, scale, scatter-add) is spelt here once
  and is never opened by the proofs: it enters both programs in the same way, so it is carried along as it stands.
-/
import proofs.«161680_j78417512890502_1_alg».proof.Proof.Gen.ReferenceIdeal
import Idealize.ShloMosaic.PureOps.Ideal

noncomputable section

namespace Cert.Gcn

open Idealize.ShloMosaic Idealize.ShloMosaic.TcCoe Cert.ReferenceIdeal Cert.ReferenceIdeal.Gen

/-- An array of 32-bit integers of shape `S`. -/
abbrev IArr (S : Shape) : Type := IVec S 32
/-- An array of extended reals of shape `S`. -/
abbrev RArr (S : Shape) : Type := FVec Ideal S .f32

/-- The messages' source nodes: row 0 of the edge table, then every node once (the self loops). -/
def srcOf (ei : IArr S2x640000) : IArr S740000 :=
  concatenate S740000 0 [⟨S640000, (shapeCast _ (extractStridedSlice S1x640000 ![0, 0] ei slices_S2x640000_S1x640000_0_0) shapeCasts_S1x640000_S640000)⟩, ⟨S100000, (iotaInDim S100000 32 0)⟩] concatenates_S640000_S100000_S740000_d0

/-- The messages' target nodes: row 1 of the edge table, then every node once. -/
def dstOf (ei : IArr S2x640000) : IArr S740000 :=
  concatenate S740000 0 [⟨S640000, (shapeCast _ (extractStridedSlice S1x640000 ![1, 0] ei slices_S2x640000_S1x640000_1_0) shapeCasts_S1x640000_S640000)⟩, ⟨S100000, (iotaInDim S100000 32 0)⟩] concatenates_S640000_S100000_S740000_d0

/-- Node numbers as a column of start indices, a negative number first wrapped by the number of nodes. -/
def wrapCol (v : IArr S740000) : IArr S740000x1 :=
  broadcastInDim S740000x1 ![0] bcast_S740000_S740000x1_0 (select (cmpi .slt v (broadcastInDim S740000 ![] bcast_S_S740000 (constantI S_ 32 0#32))) (addi v (broadcastInDim S740000 ![] bcast_S_S740000 (constantI S_ 32 100000#32))) v)

/-- degree^(-1/2) per node: the reciprocal square root of the number of messages arriving there. -/
def degInv (dst : IArr S740000) : RArr S100000 :=
  Host.rsqrt (F := Ideal) (Host.scatterAdd (F := Ideal) scatter_S100000_S740000x1_S740000_n_0_0_1 (broadcastInDim S100000 ![] bcast_S_S100000 (constant (F := Ideal) S_ .f32 0x00000000#32)) (broadcastInDim S740000x1 ![0] bcast_S740000_S740000x1_0 dst) (broadcastInDim S740000 ![] bcast_S_S740000 (constant (F := Ideal) S_ .f32 0x3F800000#32)))

/-- A message's weight: degree^(-1/2) of its source times degree^(-1/2) of its target. -/
def normOf (src dst : IArr S740000) : RArr S740000 :=
  mulf (Host.gather gather_S100000_S740000x1_S740000_n_0_n_n_0_1_1 (degInv dst) (wrapCol src)) (Host.gather gather_S100000_S740000x1_S740000_n_0_n_n_0_1_1 (degInv dst) (wrapCol dst))

/-- 128 columns: every message carries its source's row of `h` scaled by its weight; a node receives the sum. -/
def aggregate128 (src dst : IArr S740000) (nrm : RArr S740000) (h : RArr S100000x128) : RArr S100000x128 :=
  Host.scatterAdd (F := Ideal) scatter_S100000x128_S740000x1_S740000x128_1_0_0_1 (broadcastInDim S100000x128 ![] bcast_S_S100000x128 (constant (F := Ideal) S_ .f32 0x00000000#32)) (broadcastInDim S740000x1 ![0] bcast_S740000_S740000x1_0 dst) (mulf (Host.gather gather_S100000x128_S740000x1_S740000x128_1_0_n_n_0_1_1128 h (wrapCol src)) (broadcastInDim S740000x128 ![0, 1] bcast_S740000x1_S740000x128_0_1 (broadcastInDim S740000x1 ![0] bcast_S740000_S740000x1_0 nrm)))

/-- One column: the same aggregation of a single-column node table. -/
def aggregate1 (src dst : IArr S740000) (nrm : RArr S740000) (h : RArr S100000x1) : RArr S100000x1 :=
  Host.scatterAdd (F := Ideal) scatter_S100000x1_S740000x1_S740000x1_1_0_0_1 (broadcastInDim S100000x1 ![] bcast_S_S100000x1 (constant (F := Ideal) S_ .f32 0x00000000#32)) (broadcastInDim S740000x1 ![0] bcast_S740000_S740000x1_0 dst) (mulf (Host.gather gather_S100000x1_S740000x1_S740000x1_1_0_n_n_0_1_11 h (wrapCol src)) (broadcastInDim S740000x1 ![0] bcast_S740000_S740000x1_0 nrm))

/-- Add a bias row to every row, then take the positive part. -/
def biasRelu (a : RArr S100000x128) (brow : RArr S1x128) : RArr S100000x128 :=
  maximumf (addf a (broadcastInDim S100000x128 ![0, 1] bcast_S1x128_S100000x128_0_1 brow)) (broadcastInDim S100000x128 ![] bcast_S_S100000x128 (constant (F := Ideal) S_ .f32 0x00000000#32))

/-- Add the 1 × 1 bias to every entry. -/
def biasCol (a : RArr S100000x1) (b11 : RArr S1x1) : RArr S100000x1 :=
  addf a (broadcastInDim S100000x1 ![0, 1] bcast_S1x1_S100000x1_0_1 b11)

/-- A table minus its row maxima. -/
def shifted (v : RArr S100000x1) : RArr S100000x1 :=
  subf v (broadcastInDim S100000x1 ![0] bcast_S100000_S100000x1_0 (maximumf (broadcastInDim S100000 ![] bcast_S_S100000 (constant (F := Ideal) S_ .f32 0xFF800000#32)) (Host.reduce (FloatOps.maximumf (F := Ideal)) v (constant (F := Ideal) S_ .f32 0xFF800000#32) reducesTo_S100000x1_S100000_d1 h_S_)))

/-- The logarithmic softmax along the rows: the shifted table minus the logarithm of its rows' sums of exponentials. -/
def logSoftmax (v : RArr S100000x1) : RArr S100000x1 :=
  subf (shifted v) (Host.log (F := Ideal) (broadcastInDim S100000x1 ![0] bcast_S100000_S100000x1_0 (Host.reduceAdd (F := Ideal) (Host.exp (F := Ideal) (shifted v)) (constant (F := Ideal) S_ .f32 0x00000000#32) reducesTo_S100000x1_S100000_d1 h_S_)))

/-- The bias row of a layer as the reference forms it: the bias vector as a 1 × 128 row. -/
def rowOf (b : RArr S128) : RArr S1x128 := broadcastInDim S1x128 ![1] bcast_S128_S1x128_1 b
/-- The last layer's bias as a 1 × 1 array. -/
def cellOf1 (b : RArr S1) : RArr S1x1 := broadcastInDim S1x1 ![1] bcast_S1_S1x1_1 b

/-- THE NETWORK, over the dense product of each layer given as a parameter: three layers over one message structure. -/
def network (x : RArr S100000x1) (ei : IArr S2x640000) (w1 : RArr S1x128) (r1 : RArr S1x128) (w2 : RArr S128x128) (r2 : RArr S1x128)
    (w3 : RArr S128x1) (r3 : RArr S1x1) : RArr S100000x1 :=
  logSoftmax (biasCol (aggregate1 (srcOf ei) (dstOf ei) (normOf (srcOf ei) (dstOf ei))
    (Host.dotGeneral (F := Ideal) dot_S100000x128_S128x1_S100000x1_1_0_0_1_n_n none
      (biasRelu (aggregate128 (srcOf ei) (dstOf ei) (normOf (srcOf ei) (dstOf ei))
        (Host.dotGeneral (F := Ideal) dot_S100000x128_S128x128_S100000x128_1_0_0_1_n_n none
          (biasRelu (aggregate128 (srcOf ei) (dstOf ei) (normOf (srcOf ei) (dstOf ei))
            (Host.dotGeneral (F := Ideal) dot_S100000x1_S1x128_S100000x128_1_0_0_1_n_n none x w1)) r1) w2)) r2) w3)) r3)

end Cert.Gcn

end
-- ==== Proof.RefValue.lean ====
/-
  The reference's result is the network of the argument arrays.

  The reference's run states its result as one composed term of the arguments' launch contents: every host operation of
  @main applied to the terms of its operands, with the shared pieces (the messages' sources and targets, their weights)
  repeated at each use. Folding the repeated pieces back into their names, that term is `Cert.Gcn.network` of the eight
  arguments, the bias vectors entering as rows: the two are the same term once the named stages are unfolded.
-/
import proofs.«161680_j78417512890502_1_alg».proof.Proof.RefRunPatched
import proofs.«161680_j78417512890502_1_alg».proof.Proof.Stages

set_option maxRecDepth 1000000
set_option maxHeartbeats 2000000000

noncomputable section

namespace Cert.ReferenceIdeal.RefValue

open Idealize.ShloMosaic Idealize.ShloMosaic.TcCoe Idealize.SL.Sem
open Cert.ReferenceIdeal Cert.ReferenceIdeal.Gen

/-- The reference's composed result term is the network of its arguments' launch contents. -/
theorem result_eq (m : (ℓ : Loc nD τ sig) → Buf (Elt Ideal) ℓ) (c : Dev nD) :
    Cert.ReferenceIdeal.ValueP.res_main_v79 (F := Ideal) m c
      = Cert.Gcn.network (m ((c.tc : Thread nD τ).loc main_arg0)) (m ((c.tc : Thread nD τ).loc main_arg1))
          (m ((c.tc : Thread nD τ).loc main_arg2)) (Cert.Gcn.rowOf (m ((c.tc : Thread nD τ).loc main_arg3)))
          (m ((c.tc : Thread nD τ).loc main_arg4)) (Cert.Gcn.rowOf (m ((c.tc : Thread nD τ).loc main_arg5)))
          (m ((c.tc : Thread nD τ).loc main_arg6)) (Cert.Gcn.cellOf1 (m ((c.tc : Thread nD τ).loc main_arg7))) := by
  unfold Cert.ReferenceIdeal.ValueP.res_main_v79 Cert.Gcn.network Cert.Gcn.logSoftmax Cert.Gcn.shifted Cert.Gcn.biasCol Cert.Gcn.biasRelu
    Cert.Gcn.aggregate1 Cert.Gcn.aggregate128 Cert.Gcn.normOf Cert.Gcn.degInv Cert.Gcn.wrapCol Cert.Gcn.srcOf Cert.Gcn.dstOf
    Cert.Gcn.rowOf Cert.Gcn.cellOf1
  rfl

end Cert.ReferenceIdeal.RefValue

end
-- ==== Proof.LibMatmulAt.lean ====
/-
  A plain matrix product read at an element.

  A contraction whose dimension numbers are those of an [R, K] × [K, C] matrix product (the left operand contracted on
  its axis 1, the right on its axis 0, no batch axis), accumulated into the zero splat, read at the element (p, q) is
  ∑ k, l(p, k) * r(k, q) over the extended reals. The statement is over ANY record of dimension numbers with those six
  lists, so that it applies to every record of that kind a program names, whatever its extents.
-/
import Idealize.ShloMosaic.PureOps.Ideal.Laws
import Idealize.ShloMosaic.Lib.ValueIdx

noncomputable section

namespace Cert.LibMatmulAt

open Idealize.ShloMosaic Idealize.ShloMosaic.ValueIdx

/-- The dimension numbers of an [R, K] × [K, C] matrix product, with its well-formedness proof a variable: every record
    with those six lists is this one. -/
abbrev plainOf {R K C : ℕ}
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ :=
  ⟨[1], [0], [0], [1], [], [], wf⟩

/-- The sum over the one-axis contraction index, re-indexed by that axis's coordinate, reads the left operand at (p, k)
    and the right operand at (k, q). -/
theorem plainOf_sum {R K C : ℕ} (wf : DotDims.WF ⟨2, ![R, K]⟩ ⟨2, ![K, C]⟩ ⟨2, ![R, C]⟩ [1] [0] [0] [1] [] [])
    (l : (⟨2, ![R, K]⟩ : Shape).Idx → EReal) (r : (⟨2, ![K, C]⟩ : Shape).Idx → EReal) (p : Fin R) (q : Fin C) :
    (∑ k : (plainOf wf).contr.Idx, l ((plainOf wf).lhsIdx (ix2 p q) k) * r ((plainOf wf).rhsIdx (ix2 p q) k))
      = ∑ k : Fin K, l (ix2 p k) * r (ix2 k q) := by
  have l0 : ∀ kk : (plainOf wf).contr.Idx, ((plainOf wf).lhsIdx (ix2 p q) kk 0).val = p.val := fun kk => by
    unfold DotDims.lhsIdx
    rw [dif_neg (show ¬(0 : Fin (⟨2, ![R, K]⟩ : Shape).rank) ∈ (plainOf wf).lhsBatch from List.not_mem_nil),
      dif_pos (show (0 : Fin (⟨2, ![R, K]⟩ : Shape).rank) ∈ (plainOf wf).lhsNonContracting from List.mem_singleton.mpr rfl)]
    rfl
  have r1 : ∀ kk : (plainOf wf).contr.Idx, ((plainOf wf).rhsIdx (ix2 p q) kk 1).val = q.val := fun kk => by
    unfold DotDims.rhsIdx
    rw [dif_neg (show ¬(1 : Fin (⟨2, ![K, C]⟩ : Shape).rank) ∈ (plainOf wf).rhsBatch from List.not_mem_nil),
      dif_pos (show (1 : Fin (⟨2, ![K, C]⟩ : Shape).rank) ∈ (plainOf wf).rhsNonContracting from List.mem_singleton.mpr rfl)]
    rfl
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 p q) ((contrEquiv1 (plainOf wf) K rfl rfl).symm k) = ix2 p k :=
    funext fun a => Fin.ext (by
      match a with
      | ⟨0, _⟩ => exact l0 _
      | ⟨1, _⟩ => exact ((plainOf wf).lhsIdx_val_of_single rfl _ _).trans hk)
  have er : (plainOf wf).rhsIdx (ix2 p q) ((contrEquiv1 (plainOf wf) K rfl rfl).symm k) = ix2 k q :=
    funext fun a => Fin.ext (by
      match a with
      | ⟨0, _⟩ => exact ((plainOf wf).rhsIdx_val_of_single rfl _ _).trans hk
      | ⟨1, _⟩ => exact r1 _)
  rw [el, er]

/-- A matrix product into the zero accumulator, for any record of dimension numbers with the six lists of an
    [R, K] × [K, C] product, read at (p, q): the sum over k of the left operand at (p, k) times the right at (k, q). -/
theorem matmul_zero_apply {R K C : ℕ} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![R, K]⟩ φ₁) (r : FVec Ideal ⟨2, ![K, C]⟩ φ₂)
    (p : Fin R) (q : Fin C) :
    matmul D prec l r (constant (F := Ideal) ⟨2, ![R, C]⟩ .f32 0x00000000#32) (ix2 p q)
      = ∑ k : Fin K, l (ix2 p k) * r (ix2 k q) := by
  obtain ⟨lc, rc, ln, rn, lb, rb, wf⟩ := D
  dsimp only at hlc hrc hln hrn hlb hrb
  subst hlc hrc hln hrn hlb hrb
  exact (Ideal.matmul_constant_zero_apply (plainOf wf) prec l r (ix2 p q)).trans (plainOf_sum wf l r p q)

end Cert.LibMatmulAt

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibHostDot.lean ====
/-
  The host's matrix product read at an index.

  For the dimension numbers of a plain `[R, K] × [K, C] → [R, C]` product (contract the left operand's axis 1 with
  the right operand's axis 0, no batch axes), the host's `dot_general` on the extended reals, read at `(p, q)`, is
  the sum over `k` of `lhs (p, k) * rhs (k, q)`: the same sum a product into a zero accumulator gives, whatever
  the number of rows. So a product computed row block by row block is the whole product.
-/
import proofs.«161680_j78417512890502_1_alg».proof.Proof.LibPlainDot
import Idealize.ShloMosaic.PureOps.Ideal
import Idealize.ShloMosaic.PureOps.Ideal.Laws
import Idealize.ShloMosaic.Lib.ValueIdx

noncomputable section

open scoped BigOperators

namespace Cert.LibHostDot

open Idealize.ShloMosaic Idealize.ShloMosaic.ValueIdx Cert.LibPlainDot

variable {R K C : Nat} (wf : DotDims.WF ⟨2, ![R, K]⟩ ⟨2, ![K, C]⟩ ⟨2, ![R, C]⟩ [1] [0] [0] [1] [] [])

/-- THE HOST'S PLAIN PRODUCT AT `(p, q)`: the sum over `k` of `lhs (p, k) * rhs (k, q)`. -/
theorem hostDot_apply {φ₁ φ₂ : FTy} (prec : Option ContractPrecision)
    (lhs : FVec Ideal ⟨2, ![R, K]⟩ φ₁) (rhs : FVec Ideal ⟨2, ![K, C]⟩ φ₂) (p : Fin R) (q : Fin C) :
    Host.dotGeneral (F := Ideal) (plainDot R K C wf) prec lhs rhs (ix2 p q)
      = ∑ k : Fin K, lhs (ix2 p k) * rhs (ix2 k q) := by
  simp only [Host.dotGeneral]
  rw [Ideal.dotGeneral_apply, ← Equiv.sum_comp (contrEquiv1 (plainDot R K C wf) K rfl rfl).symm]
  refine Finset.sum_congr rfl fun k _ => ?_
  rw [plainDot_lhsIdx wf p q k, plainDot_rhsIdx wf p q k]

end Cert.LibHostDot

end
-- ==== Proof.LibBlockDot.lean ====
/-
  A dense product computed row block by row block is the whole product.

  For a plain [R, K] × [K, C] product into a zero accumulator (contract the left operand's axis 1 with the right
  operand's axis 0, no batch axes) whose left operand is a block of rows of an [N, K] array, the entry (p, q) of the
  block's product is the entry (P, q) of the host's product of the whole [N, K] array with the same [K, C] array,
  when row p of the block is row P of the array: both are the sum over k of (row P)(k) · right(k, q) on the
  extended reals, and the sum is over the same K terms whatever the number of rows.
-/
import proofs.«161680_j78417512890502_1_alg».proof.Proof.LibMatmulAt
import proofs.«161680_j78417512890502_1_alg».proof.Proof.LibHostDot

noncomputable section

open scoped BigOperators

namespace Cert.LibBlockDot

open Idealize.ShloMosaic Idealize.ShloMosaic.ValueIdx Cert.LibPlainDot

/-- Entry (p, q) of a row block's product into the zero accumulator is entry (P, q) of the host's whole product,
    when the block's row p is the array's row P and the right operands agree in column q. The element formats of the
    four operands are free: on the extended reals a change of format is the identity. -/
theorem matmul_block_apply {R K C N : ℕ} (Dk : DotDims ⟨2, ![R, K]⟩ ⟨2, ![K, C]⟩ ⟨2, ![R, C]⟩)
    (hlc : Dk.lhsContracting = [1]) (hrc : Dk.rhsContracting = [0]) (hln : Dk.lhsNonContracting = [0])
    (hrn : Dk.rhsNonContracting = [1]) (hlb : Dk.lhsBatch = []) (hrb : Dk.rhsBatch = [])
    (wf : DotDims.WF ⟨2, ![N, K]⟩ ⟨2, ![K, C]⟩ ⟨2, ![N, C]⟩ [1] [0] [0] [1] [] [])
    {φ₁ φ₂ ψ₁ ψ₂ : FTy} (prec prec' : Option ContractPrecision)
    (x0 : FVec Ideal ⟨2, ![R, K]⟩ φ₁) (x1 : FVec Ideal ⟨2, ![K, C]⟩ φ₂)
    (X : FVec Ideal ⟨2, ![N, K]⟩ ψ₁) (W : FVec Ideal ⟨2, ![K, C]⟩ ψ₂)
    (p : Fin R) (P : Fin N) (q : Fin C)
    (h0 : ∀ k : Fin K, (x0 (ix2 p k) : EReal) = X (ix2 P k))
    (h1 : ∀ k : Fin K, (x1 (ix2 k q) : EReal) = W (ix2 k q)) :
    matmul Dk prec x0 x1 (constant (F := Ideal) ⟨2, ![R, C]⟩ .f32 0x00000000#32) (ix2 p q)
      = Host.dotGeneral (F := Ideal) (plainDot N K C wf) prec' X W (ix2 P q) := by
  rw [Cert.LibMatmulAt.matmul_zero_apply Dk hlc hrc hln hrn hlb hrb, Cert.LibHostDot.hostDot_apply wf]
  exact Finset.sum_congr rfl fun k _ => by rw [h0 k, h1 k]

end Cert.LibBlockDot

end
-- ==== Proof.Dense0.lean ====
/-
  Region 0: the first layer's dense product x · W1, [100000, 1] × [1, 128], computed in 20 blocks of 5000 rows.

  The region runs over 20 grid points; point t stages rows 5000·t … 5000·t + 4999 of the left operand and the whole
  right operand, multiplies them into a zero accumulator, and writes the product back as rows 5000·t … 5000·t + 4999
  of the result. On the extended reals entry (p, q) of that block product and entry (5000·t + p, q) of the product of
  the whole arrays are the same sum over the inner index, so each block written back is the block of the whole
  product, the 20 blocks tile the result, and the result array ends holding the whole product.
-/
import proofs.«161680_j78417512890502_1_alg».proof.Proof.Gen.KernelIdeal.Frame
import proofs.«161680_j78417512890502_1_alg».proof.Proof.Stages
import proofs.«161680_j78417512890502_1_alg».proof.Proof.LibBlockDot
import Idealize.ShloMosaic.Lib.Pipeline.Value
import Idealize.ShloMosaic.Lib.ValueIdx

set_option maxRecDepth 16384

noncomputable section

namespace Cert.KernelIdeal.Dense0

open Idealize.ShloMosaic Idealize.ShloMosaic.TcCoe Idealize.ShloMosaic.ValueIdx Idealize.SL.Sem
open Cert.KernelIdeal Cert.KernelIdeal.Gen
open Idealize.ShloMosaic.Pipeline (Dat)

/-- The whole-array product this region computes: the host's plain product of the two arrays. -/
abbrev whole (X : FVec Ideal S100000x1 .f32) (W : FVec Ideal S1x128 .f32) : FVec Ideal S100000x128 .f32 :=
  Host.dotGeneral (F := Ideal) Cert.ReferenceIdeal.dot_S100000x1_S1x128_S100000x128_1_0_0_1_n_n none X W

theorem zero_offsets : (![0, 0] : Fin 2 → Nat) = fun _ => 0 := funext fun a => by fin_cases a <;> rfl

/-- The body's stored value at (p, q) of its block is the whole product at (P, q), for loaded blocks that hold row P of the
    left array in their row p and the right array as it is. -/
theorem payload_at (x0 : Vec Ideal S5000x1 .f32) (x1 : Vec Ideal S1x128 .f32) (X : FVec Ideal S100000x1 .f32) (W : FVec Ideal S1x128 .f32)
    (y : S5000x128.Idx) (i : S100000x128.Idx) (hi1 : (i 1).val = (y 1).val)
    (h0 : ∀ (y' : S5000x1.Idx) (i' : S100000x1.Idx), (y' 0).val = (y 0).val → (i' 0).val = (i 0).val → (i' 1).val = (y' 1).val → x0 y' = X i')
    (h1 : ∀ y' : S1x128.Idx, x1 y' = W y') :
    k0_pay1 (F := Ideal) x0 x1 y = whole X W i := by
  obtain ⟨p, q, rfl⟩ : ∃ (p : Fin 5000) (q : Fin 128), y = ix2 p q := ⟨y 0, y 1, eq_ix2 y⟩
  obtain ⟨P, q', rfl⟩ : ∃ (P : Fin 100000) (q' : Fin 128), i = ix2 P q' := ⟨i 0, i 1, eq_ix2 i⟩
  have hq : q' = q := Fin.ext hi1
  subst hq
  unfold k0_pay1
  exact Cert.LibBlockDot.matmul_block_apply dot_S5000x1_S1x128_S5000x128_1_0_0_1_n_n rfl rfl rfl rfl rfl rfl
    Cert.ReferenceIdeal.dot_S100000x1_S1x128_S100000x128_1_0_0_1_n_n.wf none none _ _ X W p P q'
    (fun k => h0 (ix2 p k) (ix2 P k) rfl rfl rfl) (fun k => h1 (ix2 k q'))

/-- The printed index maps over the grid: the row-block windows sit at block row t, the right operand at block (0, 0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the whole product of the arrays as the region finds them. -/
theorem flushed_eq (c : Dev nD) (t : Fin cfg0.N) :
    (dat0 (F := Ideal) V c).flushed 2 t = ((cfg0.win 2).blk t).view.read (Elt Ideal) (whole (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x1) zero_offsets, View.ld_unit_zero (S := S1x128) zero_offsets]
  obtain ⟨e0, e1, e2, e3, e4, e5⟩ := index_maps t
  funext j
  show k0_pay1 (F := Ideal) (iblk0 V c 0 t) (iblk0 V c 1 t) j = whole (V c main_arg0) (V c main_arg2) (((cfg0.win 2).blk t).view.emb j)
  refine payload_at (iblk0 V c 0 t) (iblk0 V c 1 t) (V c main_arg0) (V c main_arg2) j _ ?_ ?_ ?_
  · show win0_2.index t (1 : Fin 2) * 128 + 1 * (j 1).val = (j 1).val
    omega
  · intro y' i' hy hi hi1
    show V c main_arg0 (((cfg0.win 0).blk t).view.emb y') = V c main_arg0 i'
    refine congrArg _ (funext fun a => Fin.ext ?_)
    have hi' : (i' 0).val = win0_2.index t (0 : Fin 2) * 5000 + 1 * (j 0).val := hi
    match a with
    | ⟨0, _⟩ => show win0_0.index t (0 : Fin 2) * 5000 + 1 * (y' 0).val = (i' 0).val; omega
    | ⟨1, _⟩ => show win0_0.index t (1 : Fin 2) * 1 + 1 * (y' 1).val = (i' 1).val; omega
  · intro y'
    show V c main_arg2 (((cfg0.win 1).blk t).view.emb y') = V c main_arg2 y'
    refine congrArg _ (funext fun a => Fin.ext ?_)
    match a with
    | ⟨0, _⟩ => show win0_1.index t (0 : Fin 2) * 1 + 1 * (y' 0).val = (y' 0).val; omega
    | ⟨1, _⟩ => show win0_1.index t (1 : Fin 2) * 128 + 1 * (y' 1).val = (y' 1).val; omega

/-- An index of the result is in point t's block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- Every index of the result lies in the block of the point its row falls in. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨e0, e1, e2, e3, e4, e5⟩ := index_maps ⟨(i 0).val / 5000, ht⟩
  refine ⟨⟨(i 0).val / 5000, ht⟩, flush0_2 _, ?_⟩
  rw [mem_block]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    have e4' : win0_2.index ⟨(i 0).val / 5000, ht⟩ (0 : Fin 2) = (i 0).val / 5000 := e4
    omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    omega

/-- THE RESULT ARRAY after the region: the whole product of the two arrays as the region finds them. -/
theorem final (c : Dev nD) : (dat0 (F := Ideal) V c).arrAt 2 cfg0.N = whole (V c main_arg0) (V c main_arg2) :=
  (dat0 (F := Ideal) V c).arrAt_eq_of_cover 2 (whole (V c main_arg0) (V c main_arg2)) (fun t _ => flushed_eq V c t) covered

end Cert.KernelIdeal.Dense0

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.Bias1.lean ====
/-
  Region 1: the first layer's bias and rectifier over the aggregated [100000, 128] table, in 20 blocks of 5000 rows.

  The region runs over 20 grid points; point t stages rows 5000·t … 5000·t + 4999 of the aggregated table and the 1 × 128
  bias row, adds the row to every staged row, takes the positive part and writes the block back to the same rows of
  the result. Entry (p, q) of the block is max(a(5000·t + p, q) + b(0, q), 0): the entry (5000·t + p, q) of the whole
  table plus the bias row, rectified. So each block written back is the block of that whole table, the 20 blocks
  tile the result, and the result array ends holding it.
-/
import proofs.«161680_j78417512890502_1_alg».proof.Proof.Gen.KernelIdeal.Frame
import proofs.«161680_j78417512890502_1_alg».proof.Proof.Stages
import proofs.«161680_j78417512890502_1_alg».proof.Proof.LibColumn
import Idealize.ShloMosaic.Lib.Pipeline.Value
import Idealize.ShloMosaic.Lib.ValueIdx
import Idealize.ShloMosaic.Lib.ValueLayout

set_option maxRecDepth 16384

noncomputable section

namespace Cert.KernelIdeal.Bias1

open Idealize.ShloMosaic Idealize.ShloMosaic.TcCoe Idealize.ShloMosaic.ValueIdx Idealize.SL.Sem
open Cert.KernelIdeal Cert.KernelIdeal.Gen
open Idealize.ShloMosaic.Pipeline (Dat)

theorem zero_offsets : (![0, 0] : Fin 2 → Nat) = fun _ => 0 := funext fun a => by fin_cases a <;> rfl

/-- The body's stored value at (p, q) of its block is the rectified biased table at (P, q), for loaded blocks that hold
    the table's entry (P, q) at (p, q) and the bias row as it is. -/
theorem payload_at (x0 : Vec Ideal S5000x128 .f32) (x1 : Vec Ideal S1x128 .f32) (A : FVec Ideal S100000x128 .f32) (B : FVec Ideal S1x128 .f32)
    (y : S5000x128.Idx) (i : S100000x128.Idx) (hi1 : (i 1).val = (y 1).val)
    (h0 : x0 y = A i) (h1 : ∀ y' : S1x128.Idx, x1 y' = B y') :
    k1_pay1 (F := Ideal) x0 x1 y = Cert.Gcn.biasRelu A B i := by
  obtain ⟨p, q, rfl⟩ : ∃ (p : Fin 5000) (q : Fin 128), y = ix2 p q := ⟨y 0, y 1, eq_ix2 y⟩
  obtain ⟨P, q', rfl⟩ : ∃ (P : Fin 100000) (q' : Fin 128), i = ix2 P q' := ⟨i 0, i 1, eq_ix2 i⟩
  have hq : q' = q := Fin.ext hi1
  subst hq
  unfold k1_pay1 Cert.Gcn.biasRelu
  simp only [maximumf_apply, addf_apply, broadcast_apply, shapeCast_self]
  rw [broadcastTo_1b_ab_apply, Cert.LibColumn.bcastInDim_1b_ab_apply,
    Cert.LibColumn.bcastInDim_scalar_apply _ _ _ (fun d => d.elim0), h0, h1]
  rfl

/-- The printed index maps over the grid: the row-block windows sit at block row t, the bias row at block (0, 0). -/
theorem index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point t writes back is block t of the rectified biased table of the arrays as the region finds them. -/
theorem flushed_eq (c : Dev nD) (t : Fin cfg1.N) :
    (dat1 (F := Ideal) V c).flushed 2 t = ((cfg1.win 2).blk t).view.read (Elt Ideal) (Cert.Gcn.biasRelu (V c main_v40) (V c main_v41)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S1x128) zero_offsets]
  obtain ⟨e0, e1, e2, e3, e4, e5⟩ := index_maps t
  funext j
  show k1_pay1 (F := Ideal) (iblk1 V c 0 t) (iblk1 V c 1 t) j = Cert.Gcn.biasRelu (V c main_v40) (V c main_v41) (((cfg1.win 2).blk t).view.emb j)
  refine payload_at (iblk1 V c 0 t) (iblk1 V c 1 t) (V c main_v40) (V c main_v41) j _ ?_ ?_ ?_
  · show win1_2.index t (1 : Fin 2) * 128 + 1 * (j 1).val = (j 1).val
    omega
  · show V c main_v40 (((cfg1.win 0).blk t).view.emb j) = V c main_v40 (((cfg1.win 2).blk t).view.emb j)
    refine congrArg _ (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  · intro y'
    show V c main_v41 (((cfg1.win 1).blk t).view.emb y') = V c main_v41 y'
    refine congrArg _ (funext fun a => Fin.ext ?_)
    match a with
    | ⟨0, _⟩ => show win1_1.index t (0 : Fin 2) * 1 + 1 * (y' 0).val = (y' 0).val; omega
    | ⟨1, _⟩ => show win1_1.index t (1 : Fin 2) * 128 + 1 * (y' 1).val = (y' 1).val; omega

/-- An index of the result is in point t's block iff each coordinate is in the block's range on its axis. -/
theorem mem_block (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v42).slice (win1_2.rect t)).set ↔ _
  rw [View.set_slice_whole, Rect.mem_set_unit]
  exact Iff.rfl

/-- Every index of the result lies in the block of the point its row falls in. -/
theorem covered (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨e0, e1, e2, e3, e4, e5⟩ := index_maps ⟨(i 0).val / 5000, ht⟩
  refine ⟨⟨(i 0).val / 5000, ht⟩, flush1_2 _, ?_⟩
  rw [mem_block]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    have e4' : win1_2.index ⟨(i 0).val / 5000, ht⟩ (0 : Fin 2) = (i 0).val / 5000 := e4
    omega
  | ⟨1, _⟩ =>
    show win1_2.index ⟨(i 0).val / 5000, ht⟩ (1 : Fin 2) * 128 ≤ (i 1).val ∧ (i 1).val < win1_2.index ⟨(i 0).val / 5000, ht⟩ (1 : Fin 2) * 128 + 128
    omega

/-- THE RESULT ARRAY after the region: the aggregated table plus the bias row, rectified. -/
theorem final (c : Dev nD) : (dat1 (F := Ideal) V c).arrAt 2 cfg1.N = Cert.Gcn.biasRelu (V c main_v40) (V c main_v41) :=
  (dat1 (F := Ideal) V c).arrAt_eq_of_cover 2 (Cert.Gcn.biasRelu (V c main_v40) (V c main_v41)) (fun t _ => flushed_eq V c t) covered

end Cert.KernelIdeal.Bias1

end
-- ==== Proof.Dense2.lean ====
/-
  Region 2: the second layer's dense product h1 · W2, [100000, 128] × [128, 128], computed in 20 blocks of 5000 rows.

  The region runs over 20 grid points; point t stages rows 5000·t … 5000·t + 4999 of the left operand and the whole
  right operand, multiplies them into a zero accumulator, and writes the product back as rows 5000·t … 5000·t + 4999
  of the result. On the extended reals entry (p, q) of that block product and entry (5000·t + p, q) of the product of
  the whole arrays are the same sum over the inner index, so each block written back is the block of the whole
  product, the 20 blocks tile the result, and the result array ends holding the whole product.
-/
import proofs.«161680_j78417512890502_1_alg».proof.Proof.Gen.KernelIdeal.Frame
import proofs.«161680_j78417512890502_1_alg».proof.Proof.Stages
import proofs.«161680_j78417512890502_1_alg».proof.Proof.LibBlockDot
import Idealize.ShloMosaic.Lib.Pipeline.Value
import Idealize.ShloMosaic.Lib.ValueIdx

set_option maxRecDepth 16384

noncomputable section

namespace Cert.KernelIdeal.Dense2

open Idealize.ShloMosaic Idealize.ShloMosaic.TcCoe Idealize.ShloMosaic.ValueIdx Idealize.SL.Sem
open Cert.KernelIdeal Cert.KernelIdeal.Gen
open Idealize.ShloMosaic.Pipeline (Dat)

/-- The whole-array product this region computes: the host's plain product of the two arrays. -/
abbrev whole (X : FVec Ideal S100000x128 .f32) (W : FVec Ideal S128x128 .f32) : FVec Ideal S100000x128 .f32 :=
  Host.dotGeneral (F := Ideal) Cert.ReferenceIdeal.dot_S100000x128_S128x128_S100000x128_1_0_0_1_n_n none X W

theorem zero_offsets : (![0, 0] : Fin 2 → Nat) = fun _ => 0 := funext fun a => by fin_cases a <;> rfl

/-- The body's stored value at (p, q) of its block is the whole product at (P, q), for loaded blocks that hold row P of the
    left array in their row p and the right array as it is. -/
theorem payload_at (x0 : Vec Ideal S5000x128 .f32) (x1 : Vec Ideal S128x128 .f32) (X : FVec Ideal S100000x128 .f32) (W : FVec Ideal S128x128 .f32)
    (y : S5000x128.Idx) (i : S100000x128.Idx) (hi1 : (i 1).val = (y 1).val)
    (h0 : ∀ (y' : S5000x128.Idx) (i' : S100000x128.Idx), (y' 0).val = (y 0).val → (i' 0).val = (i 0).val → (i' 1).val = (y' 1).val → x0 y' = X i')
    (h1 : ∀ y' : S128x128.Idx, x1 y' = W y') :
    k2_pay1 (F := Ideal) x0 x1 y = whole X W i := by
  obtain ⟨p, q, rfl⟩ : ∃ (p : Fin 5000) (q : Fin 128), y = ix2 p q := ⟨y 0, y 1, eq_ix2 y⟩
  obtain ⟨P, q', rfl⟩ : ∃ (P : Fin 100000) (q' : Fin 128), i = ix2 P q' := ⟨i 0, i 1, eq_ix2 i⟩
  have hq : q' = q := Fin.ext hi1
  subst hq
  unfold k2_pay1
  rw [shapeCast_self]
  exact Cert.LibBlockDot.matmul_block_apply dot_S5000x128_S128x128_S5000x128_1_0_0_1_n_n rfl rfl rfl rfl rfl rfl
    Cert.ReferenceIdeal.dot_S100000x128_S128x128_S100000x128_1_0_0_1_n_n.wf none none _ _ X W p P q'
    (fun k => h0 (ix2 p k) (ix2 P k) rfl rfl rfl) (fun k => h1 (ix2 k q'))

/-- The printed index maps over the grid: the row-block windows sit at block row t, the right operand at block (0, 0). -/
theorem index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point t writes back is block t of the whole product of the arrays as the region finds them. -/
theorem flushed_eq (c : Dev nD) (t : Fin cfg2.N) :
    (dat2 (F := Ideal) V c).flushed 2 t = ((cfg2.win 2).blk t).view.read (Elt Ideal) (whole (V c main_v42) (V c main_arg4)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x128) zero_offsets]
  obtain ⟨e0, e1, e2, e3, e4, e5⟩ := index_maps t
  funext j
  show k2_pay1 (F := Ideal) (iblk2 V c 0 t) (iblk2 V c 1 t) j = whole (V c main_v42) (V c main_arg4) (((cfg2.win 2).blk t).view.emb j)
  refine payload_at (iblk2 V c 0 t) (iblk2 V c 1 t) (V c main_v42) (V c main_arg4) j _ ?_ ?_ ?_
  · show win2_2.index t (1 : Fin 2) * 128 + 1 * (j 1).val = (j 1).val
    omega
  · intro y' i' hy hi hi1
    show V c main_v42 (((cfg2.win 0).blk t).view.emb y') = V c main_v42 i'
    refine congrArg _ (funext fun a => Fin.ext ?_)
    have hi' : (i' 0).val = win2_2.index t (0 : Fin 2) * 5000 + 1 * (j 0).val := hi
    match a with
    | ⟨0, _⟩ => show win2_0.index t (0 : Fin 2) * 5000 + 1 * (y' 0).val = (i' 0).val; omega
    | ⟨1, _⟩ => show win2_0.index t (1 : Fin 2) * 128 + 1 * (y' 1).val = (i' 1).val; omega
  · intro y'
    show V c main_arg4 (((cfg2.win 1).blk t).view.emb y') = V c main_arg4 y'
    refine congrArg _ (funext fun a => Fin.ext ?_)
    match a with
    | ⟨0, _⟩ => show win2_1.index t (0 : Fin 2) * 128 + 1 * (y' 0).val = (y' 0).val; omega
    | ⟨1, _⟩ => show win2_1.index t (1 : Fin 2) * 128 + 1 * (y' 1).val = (y' 1).val; omega

/-- An index of the result is in point t's block iff each coordinate is in the block's range on its axis. -/
theorem mem_block (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v43).slice (win2_2.rect t)).set ↔ _
  rw [View.set_slice_whole, Rect.mem_set_unit]
  exact Iff.rfl

/-- Every index of the result lies in the block of the point its row falls in. -/
theorem covered (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  have ht : (i 0).val / 5000 < cfg2.N := by rw [hN]; omega
  obtain ⟨e0, e1, e2, e3, e4, e5⟩ := index_maps ⟨(i 0).val / 5000, ht⟩
  refine ⟨⟨(i 0).val / 5000, ht⟩, flush2_2 _, ?_⟩
  rw [mem_block]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    have e4' : win2_2.index ⟨(i 0).val / 5000, ht⟩ (0 : Fin 2) = (i 0).val / 5000 := e4
    omega
  | ⟨1, _⟩ =>
    show win2_2.index ⟨(i 0).val / 5000, ht⟩ (1 : Fin 2) * 128 ≤ (i 1).val ∧ (i 1).val < win2_2.index ⟨(i 0).val / 5000, ht⟩ (1 : Fin 2) * 128 + 128
    omega

/-- THE RESULT ARRAY after the region: the whole product of the two arrays as the region finds them. -/
theorem final (c : Dev nD) : (dat2 (F := Ideal) V c).arrAt 2 cfg2.N = whole (V c main_v42) (V c main_arg4) :=
  (dat2 (F := Ideal) V c).arrAt_eq_of_cover 2 (whole (V c main_v42) (V c main_arg4)) (fun t _ => flushed_eq V c t) covered

end Cert.KernelIdeal.Dense2

end
-- ==== Proof.Bias3.lean ====
/-
  Region 3: the second layer's bias and rectifier over the aggregated [100000, 128] table, in 20 blocks of 5000 rows.

  The region runs over 20 grid points; point t stages rows 5000·t … 5000·t + 4999 of the aggregated table and the 1 × 128
  bias row, adds the row to every staged row, takes the positive part and writes the block back to the same rows of
  the result. Entry (p, q) of the block is max(a(5000·t + p, q) + b(0, q), 0): the entry (5000·t + p, q) of the whole
  table plus the bias row, rectified. So each block written back is the block of that whole table, the 20 blocks
  tile the result, and the result array ends holding it.
-/
import proofs.«161680_j78417512890502_1_alg».proof.Proof.Gen.KernelIdeal.Frame
import proofs.«161680_j78417512890502_1_alg».proof.Proof.Stages
import proofs.«161680_j78417512890502_1_alg».proof.Proof.LibColumn
import Idealize.ShloMosaic.Lib.Pipeline.Value
import Idealize.ShloMosaic.Lib.ValueIdx
import Idealize.ShloMosaic.Lib.ValueLayout

set_option maxRecDepth 16384

noncomputable section

namespace Cert.KernelIdeal.Bias3

open Idealize.ShloMosaic Idealize.ShloMosaic.TcCoe Idealize.ShloMosaic.ValueIdx Idealize.SL.Sem
open Cert.KernelIdeal Cert.KernelIdeal.Gen
open Idealize.ShloMosaic.Pipeline (Dat)

theorem zero_offsets : (![0, 0] : Fin 2 → Nat) = fun _ => 0 := funext fun a => by fin_cases a <;> rfl

/-- The body's stored value at (p, q) of its block is the rectified biased table at (P, q), for loaded blocks that hold
    the table's entry (P, q) at (p, q) and the bias row as it is. -/
theorem payload_at (x0 : Vec Ideal S5000x128 .f32) (x1 : Vec Ideal S1x128 .f32) (A : FVec Ideal S100000x128 .f32) (B : FVec Ideal S1x128 .f32)
    (y : S5000x128.Idx) (i : S100000x128.Idx) (hi1 : (i 1).val = (y 1).val)
    (h0 : x0 y = A i) (h1 : ∀ y' : S1x128.Idx, x1 y' = B y') :
    k3_pay1 (F := Ideal) x0 x1 y = Cert.Gcn.biasRelu A B i := by
  obtain ⟨p, q, rfl⟩ : ∃ (p : Fin 5000) (q : Fin 128), y = ix2 p q := ⟨y 0, y 1, eq_ix2 y⟩
  obtain ⟨P, q', rfl⟩ : ∃ (P : Fin 100000) (q' : Fin 128), i = ix2 P q' := ⟨i 0, i 1, eq_ix2 i⟩
  have hq : q' = q := Fin.ext hi1
  subst hq
  unfold k3_pay1 Cert.Gcn.biasRelu
  simp only [maximumf_apply, addf_apply, broadcast_apply, shapeCast_self]
  rw [broadcastTo_1b_ab_apply, Cert.LibColumn.bcastInDim_1b_ab_apply,
    Cert.LibColumn.bcastInDim_scalar_apply _ _ _ (fun d => d.elim0), h0, h1]
  rfl

/-- The printed index maps over the grid: the row-block windows sit at block row t, the bias row at block (0, 0). -/
theorem index_maps : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- What point t writes back is block t of the rectified biased table of the arrays as the region finds them. -/
theorem flushed_eq (c : Dev nD) (t : Fin cfg3.N) :
    (dat3 (F := Ideal) V c).flushed 2 t = ((cfg3.win 2).blk t).view.read (Elt Ideal) (Cert.Gcn.biasRelu (V c main_v56) (V c main_v57)) := by
  show (cfg3.win 2).cut (grid3.coords t) ((dat3 V c).after 2 t) = _
  rw [after3_2]
  unfold out3_2
  rw [View.canon_unit_zero zero_offsets]
  simp only [View.ld_unit_zero (S := S5000x128) zero_offsets, View.ld_unit_zero (S := S1x128) zero_offsets]
  obtain ⟨e0, e1, e2, e3, e4, e5⟩ := index_maps t
  funext j
  show k3_pay1 (F := Ideal) (iblk3 V c 0 t) (iblk3 V c 1 t) j = Cert.Gcn.biasRelu (V c main_v56) (V c main_v57) (((cfg3.win 2).blk t).view.emb j)
  refine payload_at (iblk3 V c 0 t) (iblk3 V c 1 t) (V c main_v56) (V c main_v57) j _ ?_ ?_ ?_
  · show win3_2.index t (1 : Fin 2) * 128 + 1 * (j 1).val = (j 1).val
    omega
  · show V c main_v56 (((cfg3.win 0).blk t).view.emb j) = V c main_v56 (((cfg3.win 2).blk t).view.emb j)
    refine congrArg _ (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  · intro y'
    show V c main_v57 (((cfg3.win 1).blk t).view.emb y') = V c main_v57 y'
    refine congrArg _ (funext fun a => Fin.ext ?_)
    match a with
    | ⟨0, _⟩ => show win3_1.index t (0 : Fin 2) * 1 + 1 * (y' 0).val = (y' 0).val; omega
    | ⟨1, _⟩ => show win3_1.index t (1 : Fin 2) * 128 + 1 * (y' 1).val = (y' 1).val; omega

/-- An index of the result is in point t's block iff each coordinate is in the block's range on its axis. -/
theorem mem_block (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v58).slice (win3_2.rect t)).set ↔ _
  rw [View.set_slice_whole, Rect.mem_set_unit]
  exact Iff.rfl

/-- Every index of the result lies in the block of the point its row falls in. -/
theorem covered (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  have ht : (i 0).val / 5000 < cfg3.N := by rw [hN]; omega
  obtain ⟨e0, e1, e2, e3, e4, e5⟩ := index_maps ⟨(i 0).val / 5000, ht⟩
  refine ⟨⟨(i 0).val / 5000, ht⟩, flush3_2 _, ?_⟩
  rw [mem_block]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    have e4' : win3_2.index ⟨(i 0).val / 5000, ht⟩ (0 : Fin 2) = (i 0).val / 5000 := e4
    omega
  | ⟨1, _⟩ =>
    show win3_2.index ⟨(i 0).val / 5000, ht⟩ (1 : Fin 2) * 128 ≤ (i 1).val ∧ (i 1).val < win3_2.index ⟨(i 0).val / 5000, ht⟩ (1 : Fin 2) * 128 + 128
    omega

/-- THE RESULT ARRAY after the region: the aggregated table plus the bias row, rectified. -/
theorem final (c : Dev nD) : (dat3 (F := Ideal) V c).arrAt 2 cfg3.N = Cert.Gcn.biasRelu (V c main_v56) (V c main_v57) :=
  (dat3 (F := Ideal) V c).arrAt_eq_of_cover 2 (Cert.Gcn.biasRelu (V c main_v56) (V c main_v57)) (fun t _ => flushed_eq V c t) covered

end Cert.KernelIdeal.Bias3

end
-- ==== Proof.Dense4.lean ====
/-
  Region 4: the third layer's dense product h2 · W3, [100000, 128] × [128, 1], computed in 20 blocks of 5000 rows.

  The region runs over 20 grid points; point t stages rows 5000·t … 5000·t + 4999 of the left operand and the whole
  right operand, multiplies them into a zero accumulator, and writes the product back as rows 5000·t … 5000·t + 4999
  of the result. On the extended reals entry (p, q) of that block product and entry (5000·t + p, q) of the product of
  the whole arrays are the same sum over the inner index, so each block written back is the block of the whole
  product, the 20 blocks tile the result, and the result array ends holding the whole product.
-/
import proofs.«161680_j78417512890502_1_alg».proof.Proof.Gen.KernelIdeal.Frame
import proofs.«161680_j78417512890502_1_alg».proof.Proof.Stages
import proofs.«161680_j78417512890502_1_alg».proof.Proof.LibBlockDot
import Idealize.ShloMosaic.Lib.Pipeline.Value
import Idealize.ShloMosaic.Lib.ValueIdx

set_option maxRecDepth 16384

noncomputable section

namespace Cert.KernelIdeal.Dense4

open Idealize.ShloMosaic Idealize.ShloMosaic.TcCoe Idealize.ShloMosaic.ValueIdx Idealize.SL.Sem
open Cert.KernelIdeal Cert.KernelIdeal.Gen
open Idealize.ShloMosaic.Pipeline (Dat)

/-- The whole-array product this region computes: the host's plain product of the two arrays. -/
abbrev whole (X : FVec Ideal S100000x128 .f32) (W : FVec Ideal S128x1 .f32) : FVec Ideal S100000x1 .f32 :=
  Host.dotGeneral (F := Ideal) Cert.ReferenceIdeal.dot_S100000x128_S128x1_S100000x1_1_0_0_1_n_n none X W

theorem zero_offsets : (![0, 0] : Fin 2 → Nat) = fun _ => 0 := funext fun a => by fin_cases a <;> rfl

/-- The body's stored value at (p, q) of its block is the whole product at (P, q), for loaded blocks that hold row P of the
    left array in their row p and the right array as it is. -/
theorem payload_at (x0 : Vec Ideal S5000x128 .f32) (x1 : Vec Ideal S128x1 .f32) (X : FVec Ideal S100000x128 .f32) (W : FVec Ideal S128x1 .f32)
    (y : S5000x1.Idx) (i : S100000x1.Idx) (hi1 : (i 1).val = (y 1).val)
    (h0 : ∀ (y' : S5000x128.Idx) (i' : S100000x128.Idx), (y' 0).val = (y 0).val → (i' 0).val = (i 0).val → (i' 1).val = (y' 1).val → x0 y' = X i')
    (h1 : ∀ y' : S128x1.Idx, x1 y' = W y') :
    k4_pay1 (F := Ideal) x0 x1 y = whole X W i := by
  obtain ⟨p, q, rfl⟩ : ∃ (p : Fin 5000) (q : Fin 1), y = ix2 p q := ⟨y 0, y 1, eq_ix2 y⟩
  obtain ⟨P, q', rfl⟩ : ∃ (P : Fin 100000) (q' : Fin 1), i = ix2 P q' := ⟨i 0, i 1, eq_ix2 i⟩
  have hq : q' = q := Fin.ext hi1
  subst hq
  unfold k4_pay1
  rw [shapeCast_self]
  exact Cert.LibBlockDot.matmul_block_apply dot_S5000x128_S128x1_S5000x1_1_0_0_1_n_n rfl rfl rfl rfl rfl rfl
    Cert.ReferenceIdeal.dot_S100000x128_S128x1_S100000x1_1_0_0_1_n_n.wf none none _ _ X W p P q'
    (fun k => h0 (ix2 p k) (ix2 P k) rfl rfl rfl) (fun k => h1 (ix2 k q'))

/-- The printed index maps over the grid: the row-block windows sit at block row t, the right operand at block (0, 0). -/
theorem index_maps : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b))

/-- What point t writes back is block t of the whole product of the arrays as the region finds them. -/
theorem flushed_eq (c : Dev nD) (t : Fin cfg4.N) :
    (dat4 (F := Ideal) V c).flushed 2 t = ((cfg4.win 2).blk t).view.read (Elt Ideal) (whole (V c main_v58) (V c main_arg6)) := by
  show (cfg4.win 2).cut (grid4.coords t) ((dat4 V c).after 2 t) = _
  rw [after4_2]
  unfold out4_2
  rw [View.canon_unit_zero zero_offsets]
  simp only [View.ld_unit_zero (S := S5000x128) zero_offsets, View.ld_unit_zero (S := S128x1) zero_offsets]
  obtain ⟨e0, e1, e2, e3, e4, e5⟩ := index_maps t
  funext j
  show k4_pay1 (F := Ideal) (iblk4 V c 0 t) (iblk4 V c 1 t) j = whole (V c main_v58) (V c main_arg6) (((cfg4.win 2).blk t).view.emb j)
  refine payload_at (iblk4 V c 0 t) (iblk4 V c 1 t) (V c main_v58) (V c main_arg6) j _ ?_ ?_ ?_
  · show win4_2.index t (1 : Fin 2) * 1 + 1 * (j 1).val = (j 1).val
    omega
  · intro y' i' hy hi hi1
    show V c main_v58 (((cfg4.win 0).blk t).view.emb y') = V c main_v58 i'
    refine congrArg _ (funext fun a => Fin.ext ?_)
    have hi' : (i' 0).val = win4_2.index t (0 : Fin 2) * 5000 + 1 * (j 0).val := hi
    match a with
    | ⟨0, _⟩ => show win4_0.index t (0 : Fin 2) * 5000 + 1 * (y' 0).val = (i' 0).val; omega
    | ⟨1, _⟩ => show win4_0.index t (1 : Fin 2) * 128 + 1 * (y' 1).val = (i' 1).val; omega
  · intro y'
    show V c main_arg6 (((cfg4.win 1).blk t).view.emb y') = V c main_arg6 y'
    refine congrArg _ (funext fun a => Fin.ext ?_)
    match a with
    | ⟨0, _⟩ => show win4_1.index t (0 : Fin 2) * 128 + 1 * (y' 0).val = (y' 0).val; omega
    | ⟨1, _⟩ => show win4_1.index t (1 : Fin 2) * 1 + 1 * (y' 1).val = (y' 1).val; omega

/-- An index of the result is in point t's block iff each coordinate is in the block's range on its axis. -/
theorem mem_block (t : Fin cfg4.N) (i : S100000x1.Idx) :
    i ∈ ((cfg4.win 2).blk t).view.set ↔ ∀ a : Fin 2, win4_2.index t a * S5000x1.size a ≤ (i a).val ∧ (i a).val < win4_2.index t a * S5000x1.size a + S5000x1.size a := by
  show i ∈ ((View.whole main_v59).slice (win4_2.rect t)).set ↔ _
  rw [View.set_slice_whole, Rect.mem_set_unit]
  exact Iff.rfl

/-- Every index of the result lies in the block of the point its row falls in. -/
theorem covered (i : S100000x1.Idx) : ∃ t : Fin cfg4.N, (cfg4.win 2).flush t = true ∧ i ∈ ((cfg4.win 2).blk t).view.set := by
  have hi0 : (i 0).val < 100000 := (i 0).isLt
  have hi1 : (i 1).val < 1 := (i 1).isLt
  have hN : cfg4.N = 20 := N_4
  have ht : (i 0).val / 5000 < cfg4.N := by rw [hN]; omega
  obtain ⟨e0, e1, e2, e3, e4, e5⟩ := index_maps ⟨(i 0).val / 5000, ht⟩
  refine ⟨⟨(i 0).val / 5000, ht⟩, flush4_2 _, ?_⟩
  rw [mem_block]
  intro a
  match a with
  | ⟨0, _⟩ =>
    show win4_2.index ⟨(i 0).val / 5000, ht⟩ (0 : Fin 2) * 5000 ≤ (i 0).val ∧ (i 0).val < win4_2.index ⟨(i 0).val / 5000, ht⟩ (0 : Fin 2) * 5000 + 5000
    have e4' : win4_2.index ⟨(i 0).val / 5000, ht⟩ (0 : Fin 2) = (i 0).val / 5000 := e4
    omega
  | ⟨1, _⟩ =>
    show win4_2.index ⟨(i 0).val / 5000, ht⟩ (1 : Fin 2) * 1 ≤ (i 1).val ∧ (i 1).val < win4_2.index ⟨(i 0).val / 5000, ht⟩ (1 : Fin 2) * 1 + 1
    omega

/-- THE RESULT ARRAY after the region: the whole product of the two arrays as the region finds them. -/
theorem final (c : Dev nD) : (dat4 (F := Ideal) V c).arrAt 2 cfg4.N = whole (V c main_v58) (V c main_arg6) :=
  (dat4 (F := Ideal) V c).arrAt_eq_of_cover 2 (whole (V c main_v58) (V c main_arg6)) (fun t _ => flushed_eq V c t) covered

end Cert.KernelIdeal.Dense4

end
-- ==== Proof.LibRowReduce.lean ====
/- Row reductions of a two-axis array kept as a column and repeated along the rows, read at an index over the extended reals:
   the lane sum of row p is the plain sum over the row, the lane maximum the fold of max over the row from the initial word; a
   length-a vector cast to an a × 1 column and broadcast to a × b reads, at (p, q), the vector's entry p; a 1 × 1 array broadcast
   to a × b reads its one entry everywhere. Names no program. -/
import proofs.«161680_j78417512890502_1_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRowReduce

open Idealize.ShloMosaic Idealize.ShloMosaic.ValueIdx

variable {a b : ℕ}

/-- Result index p of a reduction along the second axis, with the dropped coordinate k put back, is (p, k). -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- The lane sum of row p. -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of row p: max folded over the row from the initial word. -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits (F := Ideal) φ acc) (fun k => src (ix2 p k)) :=
  (Ideal.multiReduction_maximumf_single src acc h hφ hacc (ix1 p)).trans
    (congrArg (fun f => (Finset.univ : Finset (Fin b)).fold max (FloatOps.ofBits (F := Ideal) φ acc) f)
      (funext fun k => congrArg src (lift_row h p k)))

variable {α : Type}

/-- A vector kept as a column and repeated along the rows reads, at (p, q), its entry p. -/
theorem column_repeat_apply {b' : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b']⟩) (p : Fin a) (q : Fin b') :
    broadcastTo ⟨2, ![a, b']⟩ (shapeCast ⟨2, ![a, 1]⟩ v hc) hb (ix2 p q) = v (ix1 p) :=
  (Cert.LibColumn.broadcastTo_a1_ab_apply _ hb p q).trans (Cert.LibColumn.shapeCast_a_a1_apply v hc p 0)

/-- A 1 × 1 array repeated over a × b reads its one entry everywhere. -/
theorem broadcastTo_11_ab_apply (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibRowReduce

end
-- ==== Proof.LibRowF32.lean ====
/-
  The vector unit's single-precision lane sum and lane maximum along the second axis, read at a row, with the side
  condition on the initial word spelt as the literal equation a printed reduction carries (`0#32 = 0#32`,
  `0xFF800000#32 = 0xFF800000#32`), so that a rewrite matches the printed term as it stands. For any extents.
-/
import proofs.«161680_j78417512890502_1_alg».proof.Proof.LibRowReduce
import Idealize.ShloMosaic.PureOps.Ideal
import Idealize.ShloMosaic.PureOps.Ideal.Laws
import Idealize.ShloMosaic.Lib.ValueIdx

noncomputable section

namespace Cert.LibRowF32

open Idealize.ShloMosaic Idealize.ShloMosaic.ValueIdx Cert.LibRowReduce

variable {a b : ℕ}

/-- A single-precision lane sum along the second axis, started from the zero word, at row `p`: the plain sum of the row. -/
theorem rowSum_f32 (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = 0x00000000#32) (p : Fin a) :
    multiReduction .add [(1 : Fin 2)] ⟨1, ![a]⟩ src 0x00000000#32 h hφ hacc (ix1 p) = ∑ k : Fin b, src (ix2 p k) :=
  rowSum_apply src _ h hφ hacc p

/-- A single-precision lane maximum along the second axis, started from the word of minus infinity, at row `p`: the
    fold of `max` over the row from that word's value. -/
theorem rowMax_f32 (src : FVec Ideal ⟨2, ![a, b]⟩ .f32)
    (h : (⟨2, ![a, b]⟩ : Shape).Reduces [(1 : Fin 2)] ⟨1, ![a]⟩) (hφ : FKind.Formats .f32)
    (hacc : (0xFF800000#32 : BitVec 32) = 0xFF800000#32) (p : Fin a) :
    multiReduction .maximumf [(1 : Fin 2)] ⟨1, ![a]⟩ src 0xFF800000#32 h hφ hacc (ix1 p)
      = (Finset.univ : Finset (Fin b)).fold max (Ideal.ofBits .f32 0xFF800000#32) (fun k => src (ix2 p k)) :=
  rowMax_apply src _ h hφ hacc p

end Cert.LibRowF32

end
-- ==== Proof.LibHostRowMax.lean ====
/-
  The host's maximum along the second axis of an a×b array of extended reals, read at row p: the fold of `max` over
  the row from the initial value. For any extents; the reducing function is given up to an equation with `max`, so that
  an instance's own spelling of the maximum fits.
-/
import proofs.«161680_j78417512890502_1_alg».proof.Proof.LibRowReduce
import Idealize.ShloMosaic.PureOps.Reduce
import Idealize.ShloMosaic.PureOps.Ideal
import Idealize.ShloMosaic.Lib.ValueIdx

noncomputable section

namespace Cert.LibHostRowMax

open Idealize.ShloMosaic Idealize.ShloMosaic.ValueIdx Cert.LibRowReduce

variable {a b : ℕ}

/-- THE HOST'S ROW MAXIMUM at row `p`. -/
theorem hostRowMax_apply (f : EReal → EReal → EReal) (hf : f = max) (x : (⟨2, ![a, b]⟩ : Shape).Idx → EReal)
    (init : (⟨0, ![]⟩ : Shape).Idx → EReal)
    (h' : (⟨2, ![a, b]⟩ : Shape).ReducesTo [(1 : Fin 2)] ⟨1, ![a]⟩)
    (h : (⟨2, ![a, b]⟩ : Shape).Reduces [(1 : Fin 2)] ⟨1, ![a]⟩) (hu : 0 < (⟨0, ![]⟩ : Shape).numel) (p : Fin a) :
    Host.reduce f x init h' hu (ix1 p)
      = (Finset.univ : Finset (Fin b)).fold max (init (Shape.Idx.first hu)) (fun k => x (ix2 p k)) := by
  subst hf
  rw [Host.reduce_eq_fold_single max x init h' h hu (ix1 p)]
  exact congrArg (fun g : Fin b → EReal => (Finset.univ : Finset (Fin b)).fold max (init (Shape.Idx.first hu)) g)
    (funext fun k => congrArg x (lift_row h p k))

end Cert.LibHostRowMax

end
-- ==== Proof.LibRowMin.lean ====
/- The lane MINIMUM along the second axis of a two-axis array, read at row p over the extended reals: min folded over the row
   from the initial word; the host's sum along that axis as the initial value plus the plain sum over the row; and a length-n vector viewed as an a × b array (n = a·b, rows of length b laid end to end), read at
   (p, k) as the vector's entry p·b + k. For any extents and element type. Names no program. -/
import proofs.«161680_j78417512890502_1_alg».proof.Proof.LibRowReduce
import Idealize.ShloMosaic.PureOps.Ideal
import Idealize.ShloMosaic.PureOps.Ideal.Laws
import Idealize.ShloMosaic.Lib.Pipeline.Value
import Idealize.ShloMosaic.Lib.ValueIdx

noncomputable section

namespace Cert.LibRowMin

open Idealize.ShloMosaic Idealize.ShloMosaic.ValueIdx

variable {a b : ℕ}

/-- The lane minimum of row p: min folded over the row from the initial word. -/
theorem rowMin_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.minimumf.neutral φ hφ) (p : Fin a) :
    multiReduction .minimumf [(1 : Fin 2)] ⟨1, ![a]⟩ src acc h hφ hacc (ix1 p)
      = (Finset.univ : Finset (Fin b)).fold min (FloatOps.ofBits (F := Ideal) φ acc) (fun k => src (ix2 p k)) := by
  rw [multiReduction_minimumf_eq_fold]
  refine (h.fold_filter_drop_single _ _ src (ix1 p)).trans ?_
  exact congrArg (fun f => (Finset.univ : Finset (Fin b)).fold min (FloatOps.ofBits (F := Ideal) φ acc) f)
    (funext fun k => congrArg src (Cert.LibRowReduce.lift_row h p k))

/-- The lane sum of row p of an f32 array from the zero word, with the side condition on the initial word spelt as an
    equation between the two literal words (the form a printed reduction carries). -/
theorem rowSum_f32 (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = 0x00000000#32) (p : Fin a) :
    multiReduction .add [(1 : Fin 2)] ⟨1, ![a]⟩ src 0x00000000#32 h hφ hacc (ix1 p) = ∑ k : Fin b, src (ix2 p k) :=
  Cert.LibRowReduce.rowSum_apply src 0x00000000#32 h hφ hacc p

/-- The lane minimum of row p of an f32 array from the word of +∞, the side condition spelt the same way. -/
theorem rowMin_f32 (src : FVec Ideal ⟨2, ![a, b]⟩ .f32)
    (h : (⟨2, ![a, b]⟩ : Shape).Reduces [(1 : Fin 2)] ⟨1, ![a]⟩) (hφ : FKind.Formats .f32)
    (hacc : (0x7F800000#32 : BitVec 32) = 0x7F800000#32) (p : Fin a) :
    multiReduction .minimumf [(1 : Fin 2)] ⟨1, ![a]⟩ src 0x7F800000#32 h hφ hacc (ix1 p)
      = (Finset.univ : Finset (Fin b)).fold min (Ideal.ofBits .f32 0x7F800000#32) (fun k => src (ix2 p k)) :=
  rowMin_apply src 0x7F800000#32 h hφ hacc p

/-- The HOST's sum along the second axis at row p: the initial value plus the plain sum over the row. -/
theorem hostRowSum_apply (x : (⟨2, ![a, b]⟩ : Shape).Idx → EReal) (init : EReal)
    (h' : (⟨2, ![a, b]⟩ : Shape).ReducesTo [(1 : Fin 2)] ⟨1, ![a]⟩) (h : (⟨2, ![a, b]⟩ : Shape).Reduces [(1 : Fin 2)] ⟨1, ![a]⟩)
    (p : Fin a) : Ideal.hostReduceAdd h' x init (ix1 p) = init + ∑ k : Fin b, x (ix2 p k) :=
  (Ideal.hostReduceAdd_single h' h x init (ix1 p)).trans
    (congrArg (fun z => init + z) (Finset.sum_congr rfl fun k _ => congrArg x (Cert.LibRowReduce.lift_row h p k)))

variable {α : Type}

/-- A vector of length n cast to an a × b array reads, at (p, k), the vector's entry q whenever q = p·b + k. -/
theorem shapeCast_n_ab_apply {n : ℕ} (v : (⟨1, ![n]⟩ : Shape).Idx → α)
    (h : (⟨1, ![n]⟩ : Shape).ShapeCasts ⟨2, ![a, b]⟩) (p : Fin a) (k : Fin b) (q : Fin n) (hq : q.val = p.val * b + k.val) :
    shapeCast ⟨2, ![a, b]⟩ v h (ix2 p k) = v (ix1 q) :=
  shapeCast_apply v h _ _ (by
    rw [Shape.rowMajor_val_two, Shape.rowMajor_val_one]
    exact hq)

end Cert.LibRowMin

end
-- ==== Proof.Softmax5.lean ====
/-
  Region 5: the last layer's bias and logarithmic softmax along the rows of the aggregated [100000, 1] table, in 20 blocks
  of 5000 rows.

  For one row r of a table (after the bias is added) the logarithmic softmax at entry u is
      (r(u) - mx) - log (∑ₖ exp (r(k) - mx)),      mx the row's maximum folded from minus infinity,
  which `rowLogSoftmax` spells on the extended reals. The body computes exactly this of every staged row (a lane maximum,
  a lane sum, exp and log entry by entry), and the reference computes it of every row of the whole table, with one more
  maximum against minus infinity that changes nothing (the fold already starts there). A row of a staged block is a row
  of the table, so each block written back is the block of the whole result, and the 20 blocks tile it.
-/
import proofs.«161680_j78417512890502_1_alg».proof.Proof.Gen.KernelIdeal.Frame
import proofs.«161680_j78417512890502_1_alg».proof.Proof.Stages
import proofs.«161680_j78417512890502_1_alg».proof.Proof.LibColumn
import proofs.«161680_j78417512890502_1_alg».proof.Proof.LibRowReduce
import proofs.«161680_j78417512890502_1_alg».proof.Proof.LibRowF32
import proofs.«161680_j78417512890502_1_alg».proof.Proof.LibHostRowMax
import proofs.«161680_j78417512890502_1_alg».proof.Proof.LibRowMin
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Softmax5

open Idealize.ShloMosaic Idealize.ShloMosaic.TcCoe Idealize.ShloMosaic.ValueIdx Idealize.SL.Sem
open Cert.KernelIdeal Cert.KernelIdeal.Gen
open Idealize.ShloMosaic.Pipeline (Dat)

/-- The logarithmic softmax of one row at entry `u`, on the extended reals. -/
def rowLogSoftmax {b : ℕ} (row : Fin b → EReal) (u : Fin b) : EReal :=
  (row u - (Finset.univ : Finset (Fin b)).fold max (Ideal.ofBits .f32 0xFF800000#32) row)
    - Ideal.log (∑ k : Fin b, Ideal.exp (row k - (Finset.univ : Finset (Fin b)).fold max (Ideal.ofBits .f32 0xFF800000#32) row))

/-- The body's stored value at (p, u): the logarithmic softmax of the staged row p plus the staged bias. -/
theorem kernel_row (x0 : Vec Ideal S5000x1 .f32) (x1 : Vec Ideal S1x1 .f32) (p : Fin 5000) (u : Fin 1) :
    k5_pay1 (F := Ideal) x0 x1 (ix2 p u)
      = rowLogSoftmax (fun k : Fin 1 => x0 (ix2 p k) + x1 (ix2 (0 : Fin 1) (0 : Fin 1))) u := by
  have hmax : ∀ (w : FVec Ideal S5000x1 .f32) (p' : Fin 5000),
      multiReduction .maximumf [1] S5000 w 0xFF800000#32 reduces_S5000x1_S5000 (.inl rfl) rfl (ix1 p')
        = (Finset.univ : Finset (Fin 1)).fold max (Ideal.ofBits .f32 0xFF800000#32) (fun k => w (ix2 p' k)) :=
    fun w p' => Cert.LibRowF32.rowMax_f32 (a := 5000) (b := 1) w reduces_S5000x1_S5000 _ _ p'
  have hsum : ∀ (w : FVec Ideal S5000x1 .f32) (p' : Fin 5000),
      multiReduction .add [1] S5000 w 0x00000000#32 reduces_S5000x1_S5000 (.inl rfl) rfl (ix1 p') = ∑ k : Fin 1, w (ix2 p' k) :=
    fun w p' => Cert.LibRowF32.rowSum_f32 (a := 5000) (b := 1) w reduces_S5000x1_S5000 _ _ p'
  have hexp : ∀ (w : FVec Ideal S5000x1 .f32) (i : S5000x1.Idx), Idealize.ShloMosaic.exp w i = Ideal.exp (w i) := fun _ _ => rfl
  have hlog : ∀ (w : FVec Ideal S5000x1 .f32) (i : S5000x1.Idx), Idealize.ShloMosaic.log w i = Ideal.log (w i) := fun _ _ => rfl
  unfold k5_pay1 rowLogSoftmax
  simp only [subf_apply, addf_apply, hexp, hlog, shapeCast_self, Cert.LibColumn.shapeCast_a_a1_apply, hmax, hsum,
    Cert.LibRowReduce.broadcastTo_11_ab_apply]

/-- The reference's stage at (P, u): the logarithmic softmax of row P of the table plus the bias. -/
theorem host_row (A : FVec Ideal Cert.ReferenceIdeal.S100000x1 .f32) (B : FVec Ideal Cert.ReferenceIdeal.S1x1 .f32) (P : Fin 100000) (u : Fin 1) :
    Cert.Gcn.logSoftmax (Cert.Gcn.biasCol A B) (ix2 P u)
      = rowLogSoftmax (fun k : Fin 1 => A (ix2 P k) + B (ix2 (0 : Fin 1) k)) u := by
  have hneg : ∀ j : Cert.ReferenceIdeal.S100000.Idx,
      broadcastInDim Cert.ReferenceIdeal.S100000 ![] Cert.ReferenceIdeal.Facts₀.bcast_S_S100000 (constant (F := Ideal) Cert.ReferenceIdeal.S_ .f32 0xFF800000#32) j
        = Ideal.ofBits .f32 0xFF800000#32 :=
    fun j => Cert.LibColumn.bcastInDim_scalar_apply _ _ j (fun d => d.elim0)
  have hmax : ∀ (X : FVec Ideal Cert.ReferenceIdeal.S100000x1 .f32) (P' : Fin 100000),
      Host.reduce (FloatOps.maximumf (F := Ideal)) X (constant (F := Ideal) Cert.ReferenceIdeal.S_ .f32 0xFF800000#32)
          Cert.ReferenceIdeal.Facts₀.reducesTo_S100000x1_S100000_d1 Cert.ReferenceIdeal.Facts₀.h_S_ (ix1 P')
        = (Finset.univ : Finset (Fin 1)).fold max (Ideal.ofBits .f32 0xFF800000#32) (fun k => X (ix2 P' k)) :=
    fun X P' => Cert.LibHostRowMax.hostRowMax_apply _ (by funext a b; rfl) X _ _ (by decide) _ P'
  have hsum : ∀ (X : FVec Ideal Cert.ReferenceIdeal.S100000x1 .f32) (P' : Fin 100000),
      Host.reduceAdd (F := Ideal) X (constant (F := Ideal) Cert.ReferenceIdeal.S_ .f32 0x00000000#32)
          Cert.ReferenceIdeal.Facts₀.reducesTo_S100000x1_S100000_d1 Cert.ReferenceIdeal.Facts₀.h_S_ (ix1 P')
        = ∑ k : Fin 1, X (ix2 P' k) := by
    intro X P'
    simp only [Host.reduceAdd, Ideal.hostReduceAdd_def]
    rw [Cert.LibRowMin.hostRowSum_apply _ _ _ (by decide)]
    show Ideal.ofBits .f32 0x00000000#32 + _ = _
    rw [Ideal.ofBits_zero_f32, zero_add]
  have hexp : ∀ (w : FVec Ideal Cert.ReferenceIdeal.S100000x1 .f32) (i : Cert.ReferenceIdeal.S100000x1.Idx), Host.exp w i = Ideal.exp (w i) := fun _ _ => rfl
  have hlog : ∀ (w : FVec Ideal Cert.ReferenceIdeal.S100000x1 .f32) (i : Cert.ReferenceIdeal.S100000x1.Idx), Host.log w i = Ideal.log (w i) := fun _ _ => rfl
  have hb1 : ∀ (v : FVec Ideal Cert.ReferenceIdeal.S1x1 .f32) (P' : Fin 100000) (u' : Fin 1),
      broadcastInDim Cert.ReferenceIdeal.S100000x1 ![0, 1] Cert.ReferenceIdeal.Gen.bcast_S1x1_S100000x1_0_1 v (ix2 P' u') = v (ix2 (0 : Fin 1) u') :=
    fun v P' u' => Cert.LibColumn.bcastInDim_1b_ab_apply v _ P' u'
  have hb2 : ∀ (v : FVec Ideal Cert.ReferenceIdeal.S100000 .f32) (P' : Fin 100000) (u' : Fin 1),
      broadcastInDim Cert.ReferenceIdeal.S100000x1 ![0] Cert.ReferenceIdeal.Gen.bcast_S100000_S100000x1_0 v (ix2 P' u') = v (ix1 P') :=
    fun v P' u' => Cert.LibColumn.bcastInDim_a_a1_apply v _ P' u'
  have hge : ∀ (row : Fin 1 → EReal),
      max (Ideal.ofBits .f32 0xFF800000#32) ((Finset.univ : Finset (Fin 1)).fold max (Ideal.ofBits .f32 0xFF800000#32) row)
        = (Finset.univ : Finset (Fin 1)).fold max (Ideal.ofBits .f32 0xFF800000#32) row :=
    fun row => by
      apply max_eq_right
      rw [Finset.le_fold_max]
      exact Or.inl le_rfl
  unfold Cert.Gcn.logSoftmax Cert.Gcn.shifted Cert.Gcn.biasCol rowLogSoftmax
  simp only [subf_apply, addf_apply, maximumf_apply, hexp, hlog, hb1, hb2, hneg, hmax, hsum, hge]

theorem zero_offsets : (![0, 0] : Fin 2 → Nat) = fun _ => 0 := funext fun a => by fin_cases a <;> rfl

/-- The body's stored value at an index of its block is the reference's stage at the matching index of the whole table,
    for loaded blocks that hold the table's row in the block's row and the bias as it is. -/
theorem payload_at (x0 : Vec Ideal S5000x1 .f32) (x1 : Vec Ideal S1x1 .f32) (A : FVec Ideal S100000x1 .f32) (B : FVec Ideal S1x1 .f32)
    (y : S5000x1.Idx) (i : S100000x1.Idx)
    (h0 : ∀ (y' : S5000x1.Idx) (i' : S100000x1.Idx), (y' 0).val = (y 0).val → (i' 0).val = (i 0).val → x0 y' = A i')
    (h1 : ∀ y' : S1x1.Idx, x1 y' = B y') :
    k5_pay1 (F := Ideal) x0 x1 y = Cert.Gcn.logSoftmax (Cert.Gcn.biasCol A B) i := by
  obtain ⟨p, u, rfl⟩ : ∃ (p : Fin 5000) (u : Fin 1), y = ix2 p u := ⟨y 0, y 1, eq_ix2 y⟩
  obtain ⟨P, u', rfl⟩ : ∃ (P : Fin 100000) (u' : Fin 1), i = ix2 P u' := ⟨i 0, i 1, eq_ix2 i⟩
  have hu : u' = u := Subsingleton.elim _ _
  subst hu
  rw [kernel_row, host_row]
  refine congrArg (fun row => rowLogSoftmax row u') (funext fun k => ?_)
  have hk : k = 0 := Subsingleton.elim _ _
  subst hk
  rw [h0 (ix2 p 0) (ix2 P 0) rfl rfl, h1]

/-- The printed index maps over the grid: the row-block windows sit at block row t, the bias at block (0, 0). -/
theorem index_maps : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

variable (V : (c : Dev nD) → (b : Ref sig .tc) → Buf (Elt Ideal) ((c : Thread nD τ).loc b))

/-- What point t writes back is block t of the reference's stage of the arrays as the region finds them. -/
theorem flushed_eq (c : Dev nD) (t : Fin cfg5.N) :
    (dat5 (F := Ideal) V c).flushed 2 t = ((cfg5.win 2).blk t).view.read (Elt Ideal) (Cert.Gcn.logSoftmax (Cert.Gcn.biasCol (V c main_v71) (V c main_v72))) := by
  show (cfg5.win 2).cut (grid5.coords t) ((dat5 V c).after 2 t) = _
  rw [after5_2]
  unfold out5_2
  rw [View.canon_unit_zero zero_offsets]
  simp only [View.ld_unit_zero (S := S5000x1) zero_offsets, View.ld_unit_zero (S := S1x1) zero_offsets]
  obtain ⟨e0, e1, e2, e3, e4, e5⟩ := index_maps t
  funext j
  show k5_pay1 (F := Ideal) (iblk5 V c 0 t) (iblk5 V c 1 t) j = Cert.Gcn.logSoftmax (Cert.Gcn.biasCol (V c main_v71) (V c main_v72)) (((cfg5.win 2).blk t).view.emb j)
  refine payload_at (iblk5 V c 0 t) (iblk5 V c 1 t) (V c main_v71) (V c main_v72) j _ ?_ ?_
  · intro y' i' hy hi
    show V c main_v71 (((cfg5.win 0).blk t).view.emb y') = V c main_v71 i'
    refine congrArg _ (funext fun a => Fin.ext ?_)
    have hi' : (i' 0).val = win5_2.index t (0 : Fin 2) * 5000 + 1 * (j 0).val := hi
    have hy1 : (y' 1).val < 1 := (y' 1).isLt
    have hi1 : (i' 1).val < 1 := (i' 1).isLt
    match a with
    | ⟨0, _⟩ => show win5_0.index t (0 : Fin 2) * 5000 + 1 * (y' 0).val = (i' 0).val; omega
    | ⟨1, _⟩ => show win5_0.index t (1 : Fin 2) * 1 + 1 * (y' 1).val = (i' 1).val; omega
  · intro y'
    show V c main_v72 (((cfg5.win 1).blk t).view.emb y') = V c main_v72 y'
    refine congrArg _ (funext fun a => Fin.ext ?_)
    match a with
    | ⟨0, _⟩ => show win5_1.index t (0 : Fin 2) * 1 + 1 * (y' 0).val = (y' 0).val; omega
    | ⟨1, _⟩ => show win5_1.index t (1 : Fin 2) * 1 + 1 * (y' 1).val = (y' 1).val; omega

/-- An index of the result is in point t's block iff each coordinate is in the block's range on its axis. -/
theorem mem_block (t : Fin cfg5.N) (i : S100000x1.Idx) :
    i ∈ ((cfg5.win 2).blk t).view.set ↔ ∀ a : Fin 2, win5_2.index t a * S5000x1.size a ≤ (i a).val ∧ (i a).val < win5_2.index t a * S5000x1.size a + S5000x1.size a := by
  show i ∈ ((View.whole main_v73).slice (win5_2.rect t)).set ↔ _
  rw [View.set_slice_whole, Rect.mem_set_unit]
  exact Iff.rfl

/-- Every index of the result lies in the block of the point its row falls in. -/
theorem covered (i : S100000x1.Idx) : ∃ t : Fin cfg5.N, (cfg5.win 2).flush t = true ∧ i ∈ ((cfg5.win 2).blk t).view.set := by
  have hi0 : (i 0).val < 100000 := (i 0).isLt
  have hi1 : (i 1).val < 1 := (i 1).isLt
  have hN : cfg5.N = 20 := N_5
  have ht : (i 0).val / 5000 < cfg5.N := by rw [hN]; omega
  obtain ⟨e0, e1, e2, e3, e4, e5⟩ := index_maps ⟨(i 0).val / 5000, ht⟩
  refine ⟨⟨(i 0).val / 5000, ht⟩, flush5_2 _, ?_⟩
  rw [mem_block]
  intro a
  match a with
  | ⟨0, _⟩ =>
    show win5_2.index ⟨(i 0).val / 5000, ht⟩ (0 : Fin 2) * 5000 ≤ (i 0).val ∧ (i 0).val < win5_2.index ⟨(i 0).val / 5000, ht⟩ (0 : Fin 2) * 5000 + 5000
    have e4' : win5_2.index ⟨(i 0).val / 5000, ht⟩ (0 : Fin 2) = (i 0).val / 5000 := e4
    omega
  | ⟨1, _⟩ =>
    show win5_2.index ⟨(i 0).val / 5000, ht⟩ (1 : Fin 2) * 1 ≤ (i 1).val ∧ (i 1).val < win5_2.index ⟨(i 0).val / 5000, ht⟩ (1 : Fin 2) * 1 + 1
    omega

/-- THE RESULT ARRAY after the region: the logarithmic softmax along the rows of the aggregated table plus the bias. -/
theorem final (c : Dev nD) : (dat5 (F := Ideal) V c).arrAt 2 cfg5.N = Cert.Gcn.logSoftmax (Cert.Gcn.biasCol (V c main_v71) (V c main_v72)) :=
  (dat5 (F := Ideal) V c).arrAt_eq_of_cover 2 (Cert.Gcn.logSoftmax (Cert.Gcn.biasCol (V c main_v71) (V c main_v72))) (fun t _ => flushed_eq V c t) covered

end Cert.KernelIdeal.Softmax5

end
-- ==== Proof.KernelChain.lean ====
/-
  The kernel's result buffer, traced through @main's ten segments back to the argument arrays.

  The generated frame names the buffers' contents at every segment boundary (`W0` at launch … `W10` at return): a stretch
  of host operations folds its operations' results over the contents it starts from, and a region leaves its arrays at
  what its write-backs leave and every other buffer as it found it. Read at the buffers that matter:
    · the first stretch computes the messages' sources, targets and weights from the edge table; no later segment writes
      them, so every later aggregation reads the same three arrays;
    · each region's result array is the whole-array stage of its two operands (the six region modules);
    · each later stretch gathers, scales and scatter-adds the preceding region's result (`aggregate128` / `aggregate1`) and
      reshapes the layer's bias vector into a row;
    · no segment writes an argument array.
  Composed, the result buffer at return is the network of the argument arrays with each bias entering as the reshaped row.
-/
import proofs.«161680_j78417512890502_1_alg».proof.Proof.Gen.KernelIdeal.Frame
import proofs.«161680_j78417512890502_1_alg».proof.Proof.Stages
import proofs.«161680_j78417512890502_1_alg».proof.Proof.Dense0
import proofs.«161680_j78417512890502_1_alg».proof.Proof.Bias1
import proofs.«161680_j78417512890502_1_alg».proof.Proof.Dense2
import proofs.«161680_j78417512890502_1_alg».proof.Proof.Bias3
import proofs.«161680_j78417512890502_1_alg».proof.Proof.Dense4
import proofs.«161680_j78417512890502_1_alg».proof.Proof.Softmax5
import Idealize.ShloMosaic.Lib.StableHlo.Run

set_option maxRecDepth 16384

noncomputable section

namespace Cert.KernelIdeal.Chain

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- A buffer no operation of a host stretch writes keeps its contents across the stretch. -/
macro "kept_across" ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

/-! ## What each segment leaves untouched -/

theorem W1_keep_main_arg0 : W1 (F := Ideal) m ρ c (Proc.devRef .tc main_arg0) = W0 m ρ c (Proc.devRef .tc main_arg0) := by
  show StableHlo.after hostOps0 (W0 m ρ c) (Proc.devRef .tc main_arg0) = _
  kept_across hostOps0
theorem W1_keep_main_arg2 : W1 (F := Ideal) m ρ c (Proc.devRef .tc main_arg2) = W0 m ρ c (Proc.devRef .tc main_arg2) := by
  show StableHlo.after hostOps0 (W0 m ρ c) (Proc.devRef .tc main_arg2) = _
  kept_across hostOps0
theorem W1_keep_main_arg3 : W1 (F := Ideal) m ρ c (Proc.devRef .tc main_arg3) = W0 m ρ c (Proc.devRef .tc main_arg3) := by
  show StableHlo.after hostOps0 (W0 m ρ c) (Proc.devRef .tc main_arg3) = _
  kept_across hostOps0
theorem W1_keep_main_arg4 : W1 (F := Ideal) m ρ c (Proc.devRef .tc main_arg4) = W0 m ρ c (Proc.devRef .tc main_arg4) := by
  show StableHlo.after hostOps0 (W0 m ρ c) (Proc.devRef .tc main_arg4) = _
  kept_across hostOps0
theorem W1_keep_main_arg5 : W1 (F := Ideal) m ρ c (Proc.devRef .tc main_arg5) = W0 m ρ c (Proc.devRef .tc main_arg5) := by
  show StableHlo.after hostOps0 (W0 m ρ c) (Proc.devRef .tc main_arg5) = _
  kept_across hostOps0
theorem W1_keep_main_arg6 : W1 (F := Ideal) m ρ c (Proc.devRef .tc main_arg6) = W0 m ρ c (Proc.devRef .tc main_arg6) := by
  show StableHlo.after hostOps0 (W0 m ρ c) (Proc.devRef .tc main_arg6) = _
  kept_across hostOps0
theorem W1_keep_main_arg7 : W1 (F := Ideal) m ρ c (Proc.devRef .tc main_arg7) = W0 m ρ c (Proc.devRef .tc main_arg7) := by
  show StableHlo.after hostOps0 (W0 m ρ c) (Proc.devRef .tc main_arg7) = _
  kept_across hostOps0
theorem W2_keep_main_v3 : W2 (F := Ideal) m ρ c (Proc.devRef .tc main_v3) = W1 m ρ c (Proc.devRef .tc main_v3) := W2_of_ne m ρ c main_v3 (by decide)
theorem W2_keep_main_v6 : W2 (F := Ideal) m ρ c (Proc.devRef .tc main_v6) = W1 m ρ c (Proc.devRef .tc main_v6) := W2_of_ne m ρ c main_v6 (by decide)
theorem W2_keep_main_v26 : W2 (F := Ideal) m ρ c (Proc.devRef .tc main_v26) = W1 m ρ c (Proc.devRef .tc main_v26) := W2_of_ne m ρ c main_v26 (by decide)
theorem W2_keep_main_arg3 : W2 (F := Ideal) m ρ c (Proc.devRef .tc main_arg3) = W1 m ρ c (Proc.devRef .tc main_arg3) := W2_of_ne m ρ c main_arg3 (by decide)
theorem W2_keep_main_arg4 : W2 (F := Ideal) m ρ c (Proc.devRef .tc main_arg4) = W1 m ρ c (Proc.devRef .tc main_arg4) := W2_of_ne m ρ c main_arg4 (by decide)
theorem W2_keep_main_arg5 : W2 (F := Ideal) m ρ c (Proc.devRef .tc main_arg5) = W1 m ρ c (Proc.devRef .tc main_arg5) := W2_of_ne m ρ c main_arg5 (by decide)
theorem W2_keep_main_arg6 : W2 (F := Ideal) m ρ c (Proc.devRef .tc main_arg6) = W1 m ρ c (Proc.devRef .tc main_arg6) := W2_of_ne m ρ c main_arg6 (by decide)
theorem W2_keep_main_arg7 : W2 (F := Ideal) m ρ c (Proc.devRef .tc main_arg7) = W1 m ρ c (Proc.devRef .tc main_arg7) := W2_of_ne m ρ c main_arg7 (by decide)
theorem W3_keep_main_v3 : W3 (F := Ideal) m ρ c (Proc.devRef .tc main_v3) = W2 m ρ c (Proc.devRef .tc main_v3) := by
  show StableHlo.after hostOps1 (W2 m ρ c) (Proc.devRef .tc main_v3) = _
  kept_across hostOps1
theorem W3_keep_main_v6 : W3 (F := Ideal) m ρ c (Proc.devRef .tc main_v6) = W2 m ρ c (Proc.devRef .tc main_v6) := by
  show StableHlo.after hostOps1 (W2 m ρ c) (Proc.devRef .tc main_v6) = _
  kept_across hostOps1
theorem W3_keep_main_v26 : W3 (F := Ideal) m ρ c (Proc.devRef .tc main_v26) = W2 m ρ c (Proc.devRef .tc main_v26) := by
  show StableHlo.after hostOps1 (W2 m ρ c) (Proc.devRef .tc main_v26) = _
  kept_across hostOps1
theorem W3_keep_main_arg4 : W3 (F := Ideal) m ρ c (Proc.devRef .tc main_arg4) = W2 m ρ c (Proc.devRef .tc main_arg4) := by
  show StableHlo.after hostOps1 (W2 m ρ c) (Proc.devRef .tc main_arg4) = _
  kept_across hostOps1
theorem W3_keep_main_arg5 : W3 (F := Ideal) m ρ c (Proc.devRef .tc main_arg5) = W2 m ρ c (Proc.devRef .tc main_arg5) := by
  show StableHlo.after hostOps1 (W2 m ρ c) (Proc.devRef .tc main_arg5) = _
  kept_across hostOps1
theorem W3_keep_main_arg6 : W3 (F := Ideal) m ρ c (Proc.devRef .tc main_arg6) = W2 m ρ c (Proc.devRef .tc main_arg6) := by
  show StableHlo.after hostOps1 (W2 m ρ c) (Proc.devRef .tc main_arg6) = _
  kept_across hostOps1
theorem W3_keep_main_arg7 : W3 (F := Ideal) m ρ c (Proc.devRef .tc main_arg7) = W2 m ρ c (Proc.devRef .tc main_arg7) := by
  show StableHlo.after hostOps1 (W2 m ρ c) (Proc.devRef .tc main_arg7) = _
  kept_across hostOps1
theorem W4_keep_main_v3 : W4 (F := Ideal) m ρ c (Proc.devRef .tc main_v3) = W3 m ρ c (Proc.devRef .tc main_v3) := W4_of_ne m ρ c main_v3 (by decide)
theorem W4_keep_main_v6 : W4 (F := Ideal) m ρ c (Proc.devRef .tc main_v6) = W3 m ρ c (Proc.devRef .tc main_v6) := W4_of_ne m ρ c main_v6 (by decide)
theorem W4_keep_main_v26 : W4 (F := Ideal) m ρ c (Proc.devRef .tc main_v26) = W3 m ρ c (Proc.devRef .tc main_v26) := W4_of_ne m ρ c main_v26 (by decide)
theorem W4_keep_main_arg4 : W4 (F := Ideal) m ρ c (Proc.devRef .tc main_arg4) = W3 m ρ c (Proc.devRef .tc main_arg4) := W4_of_ne m ρ c main_arg4 (by decide)
theorem W4_keep_main_arg5 : W4 (F := Ideal) m ρ c (Proc.devRef .tc main_arg5) = W3 m ρ c (Proc.devRef .tc main_arg5) := W4_of_ne m ρ c main_arg5 (by decide)
theorem W4_keep_main_arg6 : W4 (F := Ideal) m ρ c (Proc.devRef .tc main_arg6) = W3 m ρ c (Proc.devRef .tc main_arg6) := W4_of_ne m ρ c main_arg6 (by decide)
theorem W4_keep_main_arg7 : W4 (F := Ideal) m ρ c (Proc.devRef .tc main_arg7) = W3 m ρ c (Proc.devRef .tc main_arg7) := W4_of_ne m ρ c main_arg7 (by decide)
theorem W5_keep_main_v3 : W5 (F := Ideal) m ρ c (Proc.devRef .tc main_v3) = W4 m ρ c (Proc.devRef .tc main_v3) := W5_of_ne m ρ c main_v3 (by decide)
theorem W5_keep_main_v6 : W5 (F := Ideal) m ρ c (Proc.devRef .tc main_v6) = W4 m ρ c (Proc.devRef .tc main_v6) := W5_of_ne m ρ c main_v6 (by decide)
theorem W5_keep_main_v26 : W5 (F := Ideal) m ρ c (Proc.devRef .tc main_v26) = W4 m ρ c (Proc.devRef .tc main_v26) := W5_of_ne m ρ c main_v26 (by decide)
theorem W5_keep_main_arg5 : W5 (F := Ideal) m ρ c (Proc.devRef .tc main_arg5) = W4 m ρ c (Proc.devRef .tc main_arg5) := W5_of_ne m ρ c main_arg5 (by decide)
theorem W5_keep_main_arg6 : W5 (F := Ideal) m ρ c (Proc.devRef .tc main_arg6) = W4 m ρ c (Proc.devRef .tc main_arg6) := W5_of_ne m ρ c main_arg6 (by decide)
theorem W5_keep_main_arg7 : W5 (F := Ideal) m ρ c (Proc.devRef .tc main_arg7) = W4 m ρ c (Proc.devRef .tc main_arg7) := W5_of_ne m ρ c main_arg7 (by decide)
theorem W6_keep_main_v3 : W6 (F := Ideal) m ρ c (Proc.devRef .tc main_v3) = W5 m ρ c (Proc.devRef .tc main_v3) := by
  show StableHlo.after hostOps3 (W5 m ρ c) (Proc.devRef .tc main_v3) = _
  kept_across hostOps3
theorem W6_keep_main_v6 : W6 (F := Ideal) m ρ c (Proc.devRef .tc main_v6) = W5 m ρ c (Proc.devRef .tc main_v6) := by
  show StableHlo.after hostOps3 (W5 m ρ c) (Proc.devRef .tc main_v6) = _
  kept_across hostOps3
theorem W6_keep_main_v26 : W6 (F := Ideal) m ρ c (Proc.devRef .tc main_v26) = W5 m ρ c (Proc.devRef .tc main_v26) := by
  show StableHlo.after hostOps3 (W5 m ρ c) (Proc.devRef .tc main_v26) = _
  kept_across hostOps3
theorem W6_keep_main_arg6 : W6 (F := Ideal) m ρ c (Proc.devRef .tc main_arg6) = W5 m ρ c (Proc.devRef .tc main_arg6) := by
  show StableHlo.after hostOps3 (W5 m ρ c) (Proc.devRef .tc main_arg6) = _
  kept_across hostOps3
theorem W6_keep_main_arg7 : W6 (F := Ideal) m ρ c (Proc.devRef .tc main_arg7) = W5 m ρ c (Proc.devRef .tc main_arg7) := by
  show StableHlo.after hostOps3 (W5 m ρ c) (Proc.devRef .tc main_arg7) = _
  kept_across hostOps3
theorem W7_keep_main_v3 : W7 (F := Ideal) m ρ c (Proc.devRef .tc main_v3) = W6 m ρ c (Proc.devRef .tc main_v3) := W7_of_ne m ρ c main_v3 (by decide)
theorem W7_keep_main_v6 : W7 (F := Ideal) m ρ c (Proc.devRef .tc main_v6) = W6 m ρ c (Proc.devRef .tc main_v6) := W7_of_ne m ρ c main_v6 (by decide)
theorem W7_keep_main_v26 : W7 (F := Ideal) m ρ c (Proc.devRef .tc main_v26) = W6 m ρ c (Proc.devRef .tc main_v26) := W7_of_ne m ρ c main_v26 (by decide)
theorem W7_keep_main_arg6 : W7 (F := Ideal) m ρ c (Proc.devRef .tc main_arg6) = W6 m ρ c (Proc.devRef .tc main_arg6) := W7_of_ne m ρ c main_arg6 (by decide)
theorem W7_keep_main_arg7 : W7 (F := Ideal) m ρ c (Proc.devRef .tc main_arg7) = W6 m ρ c (Proc.devRef .tc main_arg7) := W7_of_ne m ρ c main_arg7 (by decide)
theorem W8_keep_main_v3 : W8 (F := Ideal) m ρ c (Proc.devRef .tc main_v3) = W7 m ρ c (Proc.devRef .tc main_v3) := W8_of_ne m ρ c main_v3 (by decide)
theorem W8_keep_main_v6 : W8 (F := Ideal) m ρ c (Proc.devRef .tc main_v6) = W7 m ρ c (Proc.devRef .tc main_v6) := W8_of_ne m ρ c main_v6 (by decide)
theorem W8_keep_main_v26 : W8 (F := Ideal) m ρ c (Proc.devRef .tc main_v26) = W7 m ρ c (Proc.devRef .tc main_v26) := W8_of_ne m ρ c main_v26 (by decide)
theorem W8_keep_main_arg7 : W8 (F := Ideal) m ρ c (Proc.devRef .tc main_arg7) = W7 m ρ c (Proc.devRef .tc main_arg7) := W8_of_ne m ρ c main_arg7 (by decide)

/-! ## The first stretch: the messages' sources, targets and weights -/

set_option maxHeartbeats 4000000 in
theorem W1_src : W1 (F := Ideal) m ρ c (Proc.devRef .tc main_v3) = Cert.Gcn.srcOf (m ((c : Thread nD τ).loc main_arg1)) := by
  show StableHlo.after hostOps0 (W0 m ρ c) (Proc.devRef .tc main_v3) = _
  after_results_simp
  rfl
set_option maxHeartbeats 4000000 in
theorem W1_dst : W1 (F := Ideal) m ρ c (Proc.devRef .tc main_v6) = Cert.Gcn.dstOf (m ((c : Thread nD τ).loc main_arg1)) := by
  show StableHlo.after hostOps0 (W0 m ρ c) (Proc.devRef .tc main_v6) = _
  after_results_simp
  rfl
set_option maxHeartbeats 4000000 in
theorem W1_nrm : W1 (F := Ideal) m ρ c (Proc.devRef .tc main_v26) = Cert.Gcn.normOf (Cert.Gcn.srcOf (m ((c : Thread nD τ).loc main_arg1))) (Cert.Gcn.dstOf (m ((c : Thread nD τ).loc main_arg1))) := by
  show StableHlo.after hostOps0 (W0 m ρ c) (Proc.devRef .tc main_v26) = _
  after_results_simp
  rfl

/-! ## The later stretches: one aggregation and one reshaped bias each -/

set_option maxHeartbeats 4000000 in
theorem W3_agg : W3 (F := Ideal) m ρ c (Proc.devRef .tc main_v40)
    = Cert.Gcn.aggregate128 (W2 m ρ c (Proc.devRef .tc main_v3)) (W2 m ρ c (Proc.devRef .tc main_v6)) (W2 m ρ c (Proc.devRef .tc main_v26)) (W2 m ρ c (Proc.devRef .tc main_v27)) := by
  show StableHlo.after hostOps1 (W2 m ρ c) (Proc.devRef .tc main_v40) = _
  after_results_simp
  rfl
theorem W3_row : W3 (F := Ideal) m ρ c (Proc.devRef .tc main_v41) = shapeCast S1x128 (W2 m ρ c (Proc.devRef .tc main_arg3)) shapeCasts_S128_S1x128 := by
  show StableHlo.after hostOps1 (W2 m ρ c) (Proc.devRef .tc main_v41) = _
  after_results
  rfl
set_option maxHeartbeats 4000000 in
theorem W6_agg : W6 (F := Ideal) m ρ c (Proc.devRef .tc main_v56)
    = Cert.Gcn.aggregate128 (W5 m ρ c (Proc.devRef .tc main_v3)) (W5 m ρ c (Proc.devRef .tc main_v6)) (W5 m ρ c (Proc.devRef .tc main_v26)) (W5 m ρ c (Proc.devRef .tc main_v43)) := by
  show StableHlo.after hostOps3 (W5 m ρ c) (Proc.devRef .tc main_v56) = _
  after_results_simp
  rfl
theorem W6_row : W6 (F := Ideal) m ρ c (Proc.devRef .tc main_v57) = shapeCast S1x128 (W5 m ρ c (Proc.devRef .tc main_arg5)) shapeCasts_S128_S1x128 := by
  show StableHlo.after hostOps3 (W5 m ρ c) (Proc.devRef .tc main_v57) = _
  after_results
  rfl
set_option maxHeartbeats 4000000 in
theorem W9_agg : W9 (F := Ideal) m ρ c (Proc.devRef .tc main_v71)
    = Cert.Gcn.aggregate1 (W8 m ρ c (Proc.devRef .tc main_v3)) (W8 m ρ c (Proc.devRef .tc main_v6)) (W8 m ρ c (Proc.devRef .tc main_v26)) (W8 m ρ c (Proc.devRef .tc main_v59)) := by
  show StableHlo.after hostOps5 (W8 m ρ c) (Proc.devRef .tc main_v71) = _
  after_results_simp
  rfl
theorem W9_cell : W9 (F := Ideal) m ρ c (Proc.devRef .tc main_v72) = shapeCast S1x1 (W8 m ρ c (Proc.devRef .tc main_arg7)) shapeCasts_S1_S1x1 := by
  show StableHlo.after hostOps5 (W8 m ρ c) (Proc.devRef .tc main_v72) = _
  after_results
  rfl

/-! ## The message arrays and the arguments at the boundaries where they are read -/

theorem W2_src : W2 (F := Ideal) m ρ c (Proc.devRef .tc main_v3) = Cert.Gcn.srcOf (m ((c : Thread nD τ).loc main_arg1)) := (W2_keep_main_v3 m ρ c).trans (W1_src m ρ c)
theorem W2_dst : W2 (F := Ideal) m ρ c (Proc.devRef .tc main_v6) = Cert.Gcn.dstOf (m ((c : Thread nD τ).loc main_arg1)) := (W2_keep_main_v6 m ρ c).trans (W1_dst m ρ c)
theorem W2_nrm : W2 (F := Ideal) m ρ c (Proc.devRef .tc main_v26) = Cert.Gcn.normOf (Cert.Gcn.srcOf (m ((c : Thread nD τ).loc main_arg1))) (Cert.Gcn.dstOf (m ((c : Thread nD τ).loc main_arg1))) := (W2_keep_main_v26 m ρ c).trans (W1_nrm m ρ c)
theorem W5_src : W5 (F := Ideal) m ρ c (Proc.devRef .tc main_v3) = Cert.Gcn.srcOf (m ((c : Thread nD τ).loc main_arg1)) := ((((W5_keep_main_v3 m ρ c).trans (W4_keep_main_v3 m ρ c)).trans (W3_keep_main_v3 m ρ c)).trans (W2_keep_main_v3 m ρ c)).trans (W1_src m ρ c)
theorem W5_dst : W5 (F := Ideal) m ρ c (Proc.devRef .tc main_v6) = Cert.Gcn.dstOf (m ((c : Thread nD τ).loc main_arg1)) := ((((W5_keep_main_v6 m ρ c).trans (W4_keep_main_v6 m ρ c)).trans (W3_keep_main_v6 m ρ c)).trans (W2_keep_main_v6 m ρ c)).trans (W1_dst m ρ c)
theorem W5_nrm : W5 (F := Ideal) m ρ c (Proc.devRef .tc main_v26) = Cert.Gcn.normOf (Cert.Gcn.srcOf (m ((c : Thread nD τ).loc main_arg1))) (Cert.Gcn.dstOf (m ((c : Thread nD τ).loc main_arg1))) := ((((W5_keep_main_v26 m ρ c).trans (W4_keep_main_v26 m ρ c)).trans (W3_keep_main_v26 m ρ c)).trans (W2_keep_main_v26 m ρ c)).trans (W1_nrm m ρ c)
theorem W8_src : W8 (F := Ideal) m ρ c (Proc.devRef .tc main_v3) = Cert.Gcn.srcOf (m ((c : Thread nD τ).loc main_arg1)) := (((((((W8_keep_main_v3 m ρ c).trans (W7_keep_main_v3 m ρ c)).trans (W6_keep_main_v3 m ρ c)).trans (W5_keep_main_v3 m ρ c)).trans (W4_keep_main_v3 m ρ c)).trans (W3_keep_main_v3 m ρ c)).trans (W2_keep_main_v3 m ρ c)).trans (W1_src m ρ c)
theorem W8_dst : W8 (F := Ideal) m ρ c (Proc.devRef .tc main_v6) = Cert.Gcn.dstOf (m ((c : Thread nD τ).loc main_arg1)) := (((((((W8_keep_main_v6 m ρ c).trans (W7_keep_main_v6 m ρ c)).trans (W6_keep_main_v6 m ρ c)).trans (W5_keep_main_v6 m ρ c)).trans (W4_keep_main_v6 m ρ c)).trans (W3_keep_main_v6 m ρ c)).trans (W2_keep_main_v6 m ρ c)).trans (W1_dst m ρ c)
theorem W8_nrm : W8 (F := Ideal) m ρ c (Proc.devRef .tc main_v26) = Cert.Gcn.normOf (Cert.Gcn.srcOf (m ((c : Thread nD τ).loc main_arg1))) (Cert.Gcn.dstOf (m ((c : Thread nD τ).loc main_arg1))) := (((((((W8_keep_main_v26 m ρ c).trans (W7_keep_main_v26 m ρ c)).trans (W6_keep_main_v26 m ρ c)).trans (W5_keep_main_v26 m ρ c)).trans (W4_keep_main_v26 m ρ c)).trans (W3_keep_main_v26 m ρ c)).trans (W2_keep_main_v26 m ρ c)).trans (W1_nrm m ρ c)

theorem W1_x : W1 (F := Ideal) m ρ c (Proc.devRef .tc main_arg0) = (m ((c : Thread nD τ).loc main_arg0)) := (W1_keep_main_arg0 m ρ c)
theorem W1_w1 : W1 (F := Ideal) m ρ c (Proc.devRef .tc main_arg2) = (m ((c : Thread nD τ).loc main_arg2)) := (W1_keep_main_arg2 m ρ c)
theorem W2_b1 : W2 (F := Ideal) m ρ c (Proc.devRef .tc main_arg3) = (m ((c : Thread nD τ).loc main_arg3)) := (W2_keep_main_arg3 m ρ c).trans (W1_keep_main_arg3 m ρ c)
theorem W4_w2 : W4 (F := Ideal) m ρ c (Proc.devRef .tc main_arg4) = (m ((c : Thread nD τ).loc main_arg4)) := (((W4_keep_main_arg4 m ρ c).trans (W3_keep_main_arg4 m ρ c)).trans (W2_keep_main_arg4 m ρ c)).trans (W1_keep_main_arg4 m ρ c)
theorem W5_b2 : W5 (F := Ideal) m ρ c (Proc.devRef .tc main_arg5) = (m ((c : Thread nD τ).loc main_arg5)) := ((((W5_keep_main_arg5 m ρ c).trans (W4_keep_main_arg5 m ρ c)).trans (W3_keep_main_arg5 m ρ c)).trans (W2_keep_main_arg5 m ρ c)).trans (W1_keep_main_arg5 m ρ c)
theorem W7_w3 : W7 (F := Ideal) m ρ c (Proc.devRef .tc main_arg6) = (m ((c : Thread nD τ).loc main_arg6)) := ((((((W7_keep_main_arg6 m ρ c).trans (W6_keep_main_arg6 m ρ c)).trans (W5_keep_main_arg6 m ρ c)).trans (W4_keep_main_arg6 m ρ c)).trans (W3_keep_main_arg6 m ρ c)).trans (W2_keep_main_arg6 m ρ c)).trans (W1_keep_main_arg6 m ρ c)
theorem W8_b3 : W8 (F := Ideal) m ρ c (Proc.devRef .tc main_arg7) = (m ((c : Thread nD τ).loc main_arg7)) := (((((((W8_keep_main_arg7 m ρ c).trans (W7_keep_main_arg7 m ρ c)).trans (W6_keep_main_arg7 m ρ c)).trans (W5_keep_main_arg7 m ρ c)).trans (W4_keep_main_arg7 m ρ c)).trans (W3_keep_main_arg7 m ρ c)).trans (W2_keep_main_arg7 m ρ c)).trans (W1_keep_main_arg7 m ρ c)

/-! ## Layer by layer -/

/-- After region 0: x · W1. -/
theorem W2_dense : W2 (F := Ideal) m ρ c (Proc.devRef .tc main_v27) = (Dense0.whole (m ((c : Thread nD τ).loc main_arg0)) (m ((c : Thread nD τ).loc main_arg2))) :=
  (W2_arr m ρ c 2).trans ((Dense0.final (V1 m ρ) c).trans (congrArg₂ Dense0.whole (W1_x m ρ c) (W1_w1 m ρ c)))

/-- After the second stretch: the first aggregation and the first bias row. -/
theorem W3_agg_eq : W3 (F := Ideal) m ρ c (Proc.devRef .tc main_v40) = (Cert.Gcn.aggregate128 (Cert.Gcn.srcOf (m ((c : Thread nD τ).loc main_arg1))) (Cert.Gcn.dstOf (m ((c : Thread nD τ).loc main_arg1))) (Cert.Gcn.normOf (Cert.Gcn.srcOf (m ((c : Thread nD τ).loc main_arg1))) (Cert.Gcn.dstOf (m ((c : Thread nD τ).loc main_arg1)))) (Dense0.whole (m ((c : Thread nD τ).loc main_arg0)) (m ((c : Thread nD τ).loc main_arg2)))) :=
  (W3_agg m ρ c).trans (by rw [W2_src, W2_dst, W2_nrm, W2_dense])
theorem W3_row_eq : W3 (F := Ideal) m ρ c (Proc.devRef .tc main_v41) = (shapeCast S1x128 (m ((c : Thread nD τ).loc main_arg3)) shapeCasts_S128_S1x128) :=
  (W3_row m ρ c).trans (by rw [W2_b1])

/-- After region 1: the first hidden table. -/
theorem W4_hidden : W4 (F := Ideal) m ρ c (Proc.devRef .tc main_v42) = (Cert.Gcn.biasRelu (Cert.Gcn.aggregate128 (Cert.Gcn.srcOf (m ((c : Thread nD τ).loc main_arg1))) (Cert.Gcn.dstOf (m ((c : Thread nD τ).loc main_arg1))) (Cert.Gcn.normOf (Cert.Gcn.srcOf (m ((c : Thread nD τ).loc main_arg1))) (Cert.Gcn.dstOf (m ((c : Thread nD τ).loc main_arg1)))) (Dense0.whole (m ((c : Thread nD τ).loc main_arg0)) (m ((c : Thread nD τ).loc main_arg2)))) (shapeCast S1x128 (m ((c : Thread nD τ).loc main_arg3)) shapeCasts_S128_S1x128)) :=
  (W4_arr m ρ c 2).trans ((Bias1.final (V3 m ρ) c).trans (congrArg₂ Cert.Gcn.biasRelu (W3_agg_eq m ρ c) (W3_row_eq m ρ c)))

/-- After region 2: h1 · W2. -/
theorem W5_dense : W5 (F := Ideal) m ρ c (Proc.devRef .tc main_v43) = (Dense2.whole (Cert.Gcn.biasRelu (Cert.Gcn.aggregate128 (Cert.Gcn.srcOf (m ((c : Thread nD τ).loc main_arg1))) (Cert.Gcn.dstOf (m ((c : Thread nD τ).loc main_arg1))) (Cert.Gcn.normOf (Cert.Gcn.srcOf (m ((c : Thread nD τ).loc main_arg1))) (Cert.Gcn.dstOf (m ((c : Thread nD τ).loc main_arg1)))) (Dense0.whole (m ((c : Thread nD τ).loc main_arg0)) (m ((c : Thread nD τ).loc main_arg2)))) (shapeCast S1x128 (m ((c : Thread nD τ).loc main_arg3)) shapeCasts_S128_S1x128)) (m ((c : Thread nD τ).loc main_arg4))) :=
  (W5_arr m ρ c 2).trans ((Dense2.final (V4 m ρ) c).trans (congrArg₂ Dense2.whole (W4_hidden m ρ c) (W4_w2 m ρ c)))

theorem W6_agg_eq : W6 (F := Ideal) m ρ c (Proc.devRef .tc main_v56) = (Cert.Gcn.aggregate128 (Cert.Gcn.srcOf (m ((c : Thread nD τ).loc main_arg1))) (Cert.Gcn.dstOf (m ((c : Thread nD τ).loc main_arg1))) (Cert.Gcn.normOf (Cert.Gcn.srcOf (m ((c : Thread nD τ).loc main_arg1))) (Cert.Gcn.dstOf (m ((c : Thread nD τ).loc main_arg1)))) (Dense2.whole (Cert.Gcn.biasRelu (Cert.Gcn.aggregate128 (Cert.Gcn.srcOf (m ((c : Thread nD τ).loc main_arg1))) (Cert.Gcn.dstOf (m ((c : Thread nD τ).loc main_arg1))) (Cert.Gcn.normOf (Cert.Gcn.srcOf (m ((c : Thread nD τ).loc main_arg1))) (Cert.Gcn.dstOf (m ((c : Thread nD τ).loc main_arg1)))) (Dense0.whole (m ((c : Thread nD τ).loc main_arg0)) (m ((c : Thread nD τ).loc main_arg2)))) (shapeCast S1x128 (m ((c : Thread nD τ).loc main_arg3)) shapeCasts_S128_S1x128)) (m ((c : Thread nD τ).loc main_arg4)))) :=
  (W6_agg m ρ c).trans (by rw [W5_src, W5_dst, W5_nrm, W5_dense])
theorem W6_row_eq : W6 (F := Ideal) m ρ c (Proc.devRef .tc main_v57) = (shapeCast S1x128 (m ((c : Thread nD τ).loc main_arg5)) shapeCasts_S128_S1x128) :=
  (W6_row m ρ c).trans (by rw [W5_b2])

/-- After region 3: the second hidden table. -/
theorem W7_hidden : W7 (F := Ideal) m ρ c (Proc.devRef .tc main_v58) = (Cert.Gcn.biasRelu (Cert.Gcn.aggregate128 (Cert.Gcn.srcOf (m ((c : Thread nD τ).loc main_arg1))) (Cert.Gcn.dstOf (m ((c : Thread nD τ).loc main_arg1))) (Cert.Gcn.normOf (Cert.Gcn.srcOf (m ((c : Thread nD τ).loc main_arg1))) (Cert.Gcn.dstOf (m ((c : Thread nD τ).loc main_arg1)))) (Dense2.whole (Cert.Gcn.biasRelu (Cert.Gcn.aggregate128 (Cert.Gcn.srcOf (m ((c : Thread nD τ).loc main_arg1))) (Cert.Gcn.dstOf (m ((c : Thread nD τ).loc main_arg1))) (Cert.Gcn.normOf (Cert.Gcn.srcOf (m ((c : Thread nD τ).loc main_arg1))) (Cert.Gcn.dstOf (m ((c : Thread nD τ).loc main_arg1)))) (Dense0.whole (m ((c : Thread nD τ).loc main_arg0)) (m ((c : Thread nD τ).loc main_arg2)))) (shapeCast S1x128 (m ((c : Thread nD τ).loc main_arg3)) shapeCasts_S128_S1x128)) (m ((c : Thread nD τ).loc main_arg4)))) (shapeCast S1x128 (m ((c : Thread nD τ).loc main_arg5)) shapeCasts_S128_S1x128)) :=
  (W7_arr m ρ c 2).trans ((Bias3.final (V6 m ρ) c).trans (congrArg₂ Cert.Gcn.biasRelu (W6_agg_eq m ρ c) (W6_row_eq m ρ c)))

/-- After region 4: h2 · W3. -/
theorem W8_dense : W8 (F := Ideal) m ρ c (Proc.devRef .tc main_v59) = (Dense4.whole (Cert.Gcn.biasRelu (Cert.Gcn.aggregate128 (Cert.Gcn.srcOf (m ((c : Thread nD τ).loc main_arg1))) (Cert.Gcn.dstOf (m ((c : Thread nD τ).loc main_arg1))) (Cert.Gcn.normOf (Cert.Gcn.srcOf (m ((c : Thread nD τ).loc main_arg1))) (Cert.Gcn.dstOf (m ((c : Thread nD τ).loc main_arg1)))) (Dense2.whole (Cert.Gcn.biasRelu (Cert.Gcn.aggregate128 (Cert.Gcn.srcOf (m ((c : Thread nD τ).loc main_arg1))) (Cert.Gcn.dstOf (m ((c : Thread nD τ).loc main_arg1))) (Cert.Gcn.normOf (Cert.Gcn.srcOf (m ((c : Thread nD τ).loc main_arg1))) (Cert.Gcn.dstOf (m ((c : Thread nD τ).loc main_arg1)))) (Dense0.whole (m ((c : Thread nD τ).loc main_arg0)) (m ((c : Thread nD τ).loc main_arg2)))) (shapeCast S1x128 (m ((c : Thread nD τ).loc main_arg3)) shapeCasts_S128_S1x128)) (m ((c : Thread nD τ).loc main_arg4)))) (shapeCast S1x128 (m ((c : Thread nD τ).loc main_arg5)) shapeCasts_S128_S1x128)) (m ((c : Thread nD τ).loc main_arg6))) :=
  (W8_arr m ρ c 2).trans ((Dense4.final (V7 m ρ) c).trans (congrArg₂ Dense4.whole (W7_hidden m ρ c) (W7_w3 m ρ c)))

theorem W9_agg_eq : W9 (F := Ideal) m ρ c (Proc.devRef .tc main_v71) = (Cert.Gcn.aggregate1 (Cert.Gcn.srcOf (m ((c : Thread nD τ).loc main_arg1))) (Cert.Gcn.dstOf (m ((c : Thread nD τ).loc main_arg1))) (Cert.Gcn.normOf (Cert.Gcn.srcOf (m ((c : Thread nD τ).loc main_arg1))) (Cert.Gcn.dstOf (m ((c : Thread nD τ).loc main_arg1)))) (Dense4.whole (Cert.Gcn.biasRelu (Cert.Gcn.aggregate128 (Cert.Gcn.srcOf (m ((c : Thread nD τ).loc main_arg1))) (Cert.Gcn.dstOf (m ((c : Thread nD τ).loc main_arg1))) (Cert.Gcn.normOf (Cert.Gcn.srcOf (m ((c : Thread nD τ).loc main_arg1))) (Cert.Gcn.dstOf (m ((c : Thread nD τ).loc main_arg1)))) (Dense2.whole (Cert.Gcn.biasRelu (Cert.Gcn.aggregate128 (Cert.Gcn.srcOf (m ((c : Thread nD τ).loc main_arg1))) (Cert.Gcn.dstOf (m ((c : Thread nD τ).loc main_arg1))) (Cert.Gcn.normOf (Cert.Gcn.srcOf (m ((c : Thread nD τ).loc main_arg1))) (Cert.Gcn.dstOf (m ((c : Thread nD τ).loc main_arg1)))) (Dense0.whole (m ((c : Thread nD τ).loc main_arg0)) (m ((c : Thread nD τ).loc main_arg2)))) (shapeCast S1x128 (m ((c : Thread nD τ).loc main_arg3)) shapeCasts_S128_S1x128)) (m ((c : Thread nD τ).loc main_arg4)))) (shapeCast S1x128 (m ((c : Thread nD τ).loc main_arg5)) shapeCasts_S128_S1x128)) (m ((c : Thread nD τ).loc main_arg6)))) :=
  (W9_agg m ρ c).trans (by rw [W8_src, W8_dst, W8_nrm, W8_dense])
theorem W9_cell_eq : W9 (F := Ideal) m ρ c (Proc.devRef .tc main_v72) = (shapeCast S1x1 (m ((c : Thread nD τ).loc main_arg7)) shapeCasts_S1_S1x1) :=
  (W9_cell m ρ c).trans (by rw [W8_b3])

/-- THE RESULT BUFFER AT RETURN: the network of the argument arrays, each bias entering as its reshaped row. -/
theorem result : W10 (F := Ideal) m ρ c (Proc.devRef .tc main_v73)
    = Cert.Gcn.network (m ((c : Thread nD τ).loc main_arg0)) (m ((c : Thread nD τ).loc main_arg1)) (m ((c : Thread nD τ).loc main_arg2)) (shapeCast S1x128 (m ((c : Thread nD τ).loc main_arg3)) shapeCasts_S128_S1x128) (m ((c : Thread nD τ).loc main_arg4)) (shapeCast S1x128 (m ((c : Thread nD τ).loc main_arg5)) shapeCasts_S128_S1x128) (m ((c : Thread nD τ).loc main_arg6)) (shapeCast S1x1 (m ((c : Thread nD τ).loc main_arg7)) shapeCasts_S1_S1x1) :=
  (W10_arr m ρ c 2).trans ((Softmax5.final (V9 m ρ) c).trans
    (congrArg Cert.Gcn.logSoftmax (congrArg₂ Cert.Gcn.biasCol (W9_agg_eq m ρ c) (W9_cell_eq m ρ c))))

end Cert.KernelIdeal.Chain

end
-- ==== Proof.LibRowCast.lean ====
/-
  A vector laid out as a one-row matrix, two spellings.

  Reshaping a length-n vector to shape [1, n] and broadcasting it along axis 1 into shape [1, n] give the same array:
  at (u, q) both read the vector's entry q (the unit coordinate u does not matter). It is the row companion of the
  column form (a vector cast to [n, 1] is its broadcast along axis 0).
-/
import proofs.«161680_j78417512890502_1_alg».proof.Proof.LibColumn
import Idealize.ShloMosaic.Lib.Pipeline.Value
import Idealize.ShloMosaic.Lib.ValueIdx
import Idealize.ShloMosaic.Lib.ValueLayout

namespace Cert.LibRowCast

open Idealize.ShloMosaic Idealize.ShloMosaic.ValueIdx

variable {α : Type}

/-- A vector `[n]` cast to a row `[1, n]` is the vector broadcast (host) along axis `[1]` to `[1, n]`. -/
theorem shapeCast_n_1n_eq_bcastInDim {n : ℕ} (v : (⟨1, ![n]⟩ : Shape).Idx → α)
    (hc : (⟨1, ![n]⟩ : Shape).ShapeCasts ⟨2, ![1, n]⟩)
    (hb : (⟨1, ![n]⟩ : Shape).BroadcastsInDim ⟨2, ![1, n]⟩ ![1]) :
    shapeCast ⟨2, ![1, n]⟩ v hc = broadcastInDim ⟨2, ![1, n]⟩ ![1] hb v := by
  funext i
  obtain ⟨u, q, rfl⟩ : ∃ (u : Fin 1) (q : Fin n), i = ix2 u q := ⟨i 0, i 1, eq_ix2 i⟩
  rw [shapeCast_a_1a_apply, Cert.LibColumn.bcastInDim_b_1b_apply]

end Cert.LibRowCast
-- ==== Proof.KernelValue.lean ====
/-
  The kernel's run with its result named: the network of the argument arrays.

  The result buffer at return is the network with each bias entering as the vector reshaped to a row (the chain through
  @main's segments); a vector reshaped to a row is the vector broadcast along axis 1, which is how the network's definition
  spells a bias row. So every weakly fair execution of the idealized kernel ends with the result at the network of the
  launch contents of its arguments, the arguments unchanged.
-/
import proofs.«161680_j78417512890502_1_alg».proof.Proof.KernelChain
import proofs.«161680_j78417512890502_1_alg».proof.Proof.KernelRunPatched
import proofs.«161680_j78417512890502_1_alg».proof.Proof.LibRowCast

set_option maxRecDepth 16384

noncomputable section

namespace Cert.KernelIdeal.KValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The result buffer at return is the network of the argument arrays, the bias rows in the network's own spelling. -/
theorem result (c : Dev nD) : W10 (F := Ideal) m ρ c (Proc.devRef .tc main_v73)
    = Cert.Gcn.network (m ((c.tc : Thread nD τ).loc main_arg0)) (m ((c.tc : Thread nD τ).loc main_arg1)) (m ((c.tc : Thread nD τ).loc main_arg2)) (Cert.Gcn.rowOf (m ((c.tc : Thread nD τ).loc main_arg3)))
        (m ((c.tc : Thread nD τ).loc main_arg4)) (Cert.Gcn.rowOf (m ((c.tc : Thread nD τ).loc main_arg5))) (m ((c.tc : Thread nD τ).loc main_arg6)) (Cert.Gcn.cellOf1 (m ((c.tc : Thread nD τ).loc main_arg7))) :=
  (Cert.KernelIdeal.Chain.result m ρ c).trans (by
    have e1 : shapeCast S1x128 (m ((c.tc : Thread nD τ).loc main_arg3)) shapeCasts_S128_S1x128 = Cert.Gcn.rowOf (m ((c.tc : Thread nD τ).loc main_arg3)) :=
      Cert.LibRowCast.shapeCast_n_1n_eq_bcastInDim _ _ _
    have e2 : shapeCast S1x128 (m ((c.tc : Thread nD τ).loc main_arg5)) shapeCasts_S128_S1x128 = Cert.Gcn.rowOf (m ((c.tc : Thread nD τ).loc main_arg5)) :=
      Cert.LibRowCast.shapeCast_n_1n_eq_bcastInDim _ _ _
    have e3 : shapeCast S1x1 (m ((c.tc : Thread nD τ).loc main_arg7)) shapeCasts_S1_S1x1 = Cert.Gcn.cellOf1 (m ((c.tc : Thread nD τ).loc main_arg7)) :=
      Cert.LibRowCast.shapeCast_n_1n_eq_bcastInDim _ _ _
    rw [e1, e2, e3])

/-- Every weakly fair execution of the idealized kernel terminates with the result at the network of the arguments'
    launch contents, the arguments unchanged. -/
theorem run : θ_run defs (onTc (τ := τ) (main (F := Ideal))) ⟨m, fun _ => 0, ρ⟩ (fun r => ∀ c : Dev nD,
      r.2.mem ((c.tc : Thread nD τ).loc main_v73) = Cert.Gcn.network (m ((c.tc : Thread nD τ).loc main_arg0)) (m ((c.tc : Thread nD τ).loc main_arg1)) (m ((c.tc : Thread nD τ).loc main_arg2)) (Cert.Gcn.rowOf (m ((c.tc : Thread nD τ).loc main_arg3)))
        (m ((c.tc : Thread nD τ).loc main_arg4)) (Cert.Gcn.rowOf (m ((c.tc : Thread nD τ).loc main_arg5))) (m ((c.tc : Thread nD τ).loc main_arg6)) (Cert.Gcn.cellOf1 (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result m ρ c), (h c).2⟩) (Cert.KernelIdeal.GenP.run (F := Ideal) m ρ)

end Cert.KernelIdeal.KValue

end
-- ==== Proof.lean ====
/-
  A three-layer graph convolution over 100000 nodes and 740000 messages (640000 edges and one self loop per node), ending
  in a logarithmic softmax: a kernel that computes each layer's dense product and each layer's bias step in six
  pipelined regions of 20 row blocks, against a reference that computes the same layers as whole-array operations.

  Both programs do the message bookkeeping with the same host operations: the sources and targets of the messages, the
  weight degree(s)^(-1/2) · degree(d)^(-1/2) of a message from s to d, and per layer the gather of the sources' rows,
  their scaling by the weights and the scatter-add into the targets' rows. Where they differ:
    · a layer's dense product h · W is one product of the whole table in the reference, and 20 products of 5000-row blocks
      into a zero accumulator (operands first narrowed to bfloat16, which on the extended reals changes nothing) in the
      kernel: entry (p, q) of either is the same sum over the inner index;
    · the bias is a vector broadcast to a row in the reference and the vector reshaped to a row in the kernel: the same row;
    · the rectifier is max(·, 0) in both; the last layer's logarithmic softmax is spelt with the same formula, the
      reference taking one more maximum with minus infinity, from which the row maximum is already folded.
  None of this needs the inputs to be finite: the two programs are the same function of the arguments on the whole of
  the extended reals, so the precondition is never opened.

  The idealization rewrote nothing (`preserves` is `True`). The kernel's frames are the generated ones; the reference's
  frame is its run with the result dropped.
-/
import proofs.«161680_j78417512890502_1_alg».proof.Defs
import proofs.«161680_j78417512890502_1_alg».proof.Proof.Gen.Kernel
import proofs.«161680_j78417512890502_1_alg».proof.Proof.Gen.Kernel.Skeleton
import proofs.«161680_j78417512890502_1_alg».proof.Proof.Gen.Kernel.Launch
import proofs.«161680_j78417512890502_1_alg».proof.Proof.Gen.Kernel.Points
import proofs.«161680_j78417512890502_1_alg».proof.Proof.Gen.Kernel.Frame
import proofs.«161680_j78417512890502_1_alg».proof.Proof.Gen.KernelIdeal
import proofs.«161680_j78417512890502_1_alg».proof.Proof.Gen.KernelIdeal.Skeleton
import proofs.«161680_j78417512890502_1_alg».proof.Proof.Gen.KernelIdeal.Launch
import proofs.«161680_j78417512890502_1_alg».proof.Proof.Gen.KernelIdeal.Points
import proofs.«161680_j78417512890502_1_alg».proof.Proof.Gen.KernelIdeal.Frame
import proofs.«161680_j78417512890502_1_alg».proof.Proof.Gen.ReferenceIdeal
import proofs.«161680_j78417512890502_1_alg».proof.Proof.Gen.Pre_finite_inputs
import proofs.«161680_j78417512890502_1_alg».proof.Proof.RefRunPatched
import proofs.«161680_j78417512890502_1_alg».proof.Proof.RefValue
import proofs.«161680_j78417512890502_1_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the result at the network of the (agreeing) argument arrays. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.result_eq, (hagree c).1, (hagree c).2.1, (hagree c).2.2.1, (hagree c).2.2.2.1,
    (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
